-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x128 : Shape := ⟨4, ![4, 16, 4096, 128]⟩
abbrev S_ : Shape := ⟨0, ![]⟩

class Facts : Prop where
  bcast_S_S4x16x4096x128 : S_.BroadcastsInDim S4x16x4096x128 (![] : Fin 0 → Fin S4x16x4096x128.rank)
  reducesTo_S4x16x4096x128_S_d0_1_2_3 : S4x16x4096x128.ReducesTo [0, 1, 2, 3] S_
  h_S_ : 0 < S_.numel

variable [Facts]

def fn {F : FTy → Type} [FloatOps F] (main_arg0 : FVec F S4x16x4096x128 .f32) (main_arg1 : FVec F S4x16x4096x128 .f32) (main_arg2 : FVec F S4x16x4096x128 .f32) : IVec S_ 1 :=
  let main_v0 : FVec F S4x16x4096x128 .f32 := Host.absf main_arg0
  let main_cst : FVec F S_ .f32 := constant S_ .f32 0x7F800000#32
  let main_v1 : FVec F S4x16x4096x128 .f32 := broadcastInDim S4x16x4096x128 ![] bcast_S_S4x16x4096x128 main_cst
  let main_v2 : IVec S4x16x4096x128 1 := cmpf .olt main_v0 main_v1
  let main_c : IVec S_ 1 := constantI S_ 1 1#1
  let main_v3 : IVec S_ 1 := (fun x v => Host.reduce IntOp.andi x v reducesTo_S4x16x4096x128_S_d0_1_2_3 h_S_) main_v2 main_c
  let main_v4 : FVec F S4x16x4096x128 .f32 := Host.absf main_arg1
  let main_cst_0 : FVec F S_ .f32 := constant S_ .f32 0x7F800000#32
  let main_v5 : FVec F S4x16x4096x128 .f32 := broadcastInDim S4x16x4096x128 ![] bcast_S_S4x16x4096x128 main_cst_0
  let main_v6 : IVec S4x16x4096x128 1 := cmpf .olt main_v4 main_v5
  let main_c_1 : IVec S_ 1 := constantI S_ 1 1#1
  let main_v7 : IVec S_ 1 := (fun x v => Host.reduce IntOp.andi x v reducesTo_S4x16x4096x128_S_d0_1_2_3 h_S_) main_v6 main_c_1
  let main_v8 : IVec S_ 1 := andi main_v3 main_v7
  let main_v9 : FVec F S4x16x4096x128 .f32 := Host.absf main_arg2
  let main_cst_2 : FVec F S_ .f32 := constant S_ .f32 0x7F800000#32
  let main_v10 : FVec F S4x16x4096x128 .f32 := broadcastInDim S4x16x4096x128 ![] bcast_S_S4x16x4096x128 main_cst_2
  let main_v11 : IVec S4x16x4096x128 1 := cmpf .olt main_v9 main_v10
  let main_c_3 : IVec S_ 1 := constantI S_ 1 1#1
  let main_v12 : IVec S_ 1 := (fun x v => Host.reduce IntOp.andi x v reducesTo_S4x16x4096x128_S_d0_1_2_3 h_S_) main_v11 main_c_3
  let main_v13 : IVec S_ 1 := andi main_v8 main_v12
  main_v13
-- ==== Kernel.lean ====
abbrev S4x16x4096x128 : Shape := ⟨4, ![4, 16, 4096, 128]⟩
abbrev S64x4096x128 : Shape := ⟨3, ![64, 4096, 128]⟩
abbrev S2x4096x128 : Shape := ⟨3, ![2, 4096, 128]⟩
abbrev S1x4096x128 : Shape := ⟨3, ![1, 4096, 128]⟩
abbrev S4096x128 : Shape := ⟨2, ![4096, 128]⟩
abbrev S128x128 : Shape := ⟨2, ![128, 128]⟩
abbrev S512x128 : Shape := ⟨2, ![512, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x16x4096x128, .f32⟩
  | .hbm, ⟨1, _⟩ => ⟨S4x16x4096x128, .f32⟩
  | .hbm, ⟨2, _⟩ => ⟨S4x16x4096x128, .f32⟩
  | .hbm, ⟨3, _⟩ => ⟨S64x4096x128, .f32⟩
  | .hbm, ⟨4, _⟩ => ⟨S64x4096x128, .f32⟩
  | .hbm, ⟨5, _⟩ => ⟨S64x4096x128, .f32⟩
  | .hbm, ⟨6, _⟩ => ⟨S64x4096x128, .f32⟩
  | .hbm, ⟨7, _⟩ => ⟨S4x16x4096x128, .f32⟩
  | .local _ .vmem, ⟨0, _⟩ => ⟨S2x4096x128, .f32⟩
  | .local _ .vmem, ⟨1, _⟩ => ⟨S2x4096x128, .f32⟩
  | .local _ .vmem, ⟨2, _⟩ => ⟨S2x4096x128, .f32⟩
  | .local _ .vmem, ⟨3, _⟩ => ⟨S2x4096x128, .f32⟩
  | .local _ .vmem, ⟨4, _⟩ => ⟨S2x4096x128, .f32⟩
  | .local _ .vmem, ⟨5, _⟩ => ⟨S2x4096x128, .f32⟩
  | .local _ .vmem, ⟨6, _⟩ => ⟨S2x4096x128, .f32⟩
  | .local _ .vmem, ⟨7, _⟩ => ⟨S2x4096x128, .f32⟩
  | _, _ => ⟨S4x16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_6 : BitVec 32 := 0#32
  let c8_i32 : BitVec 32 := 8#32
  let v8 : BitVec 32 := Scalar.addi c0_i32_6 c8_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg5 : BitVec 32 := Scf.iv c0_i32_6 c1_i32 k0_t1
  let c512_i32 : BitVec 32 := 512#32
  let v18 : BitVec 32 := Scalar.muli arg5 c512_i32
  v18
def k0_off1 (k0_t1 : Fin k0_t1_loop.trips) : Fin 2 → Nat :=
  let c0_i32_6 : BitVec 32 := 0#32
  let c1_i32 : BitVec 32 := 1#32
  let arg5 : BitVec 32 := Scf.iv c0_i32_6 c1_i32 k0_t1
  let c512_i32 : BitVec 32 := 512#32
  let v18 : BitVec 32 := Scalar.muli arg5 c512_i32
  let v19 : BitVec 32 := v18
  let v22 : Index := Scalar.indexCast v19
  let c0_22 : Index := 0#32
  ![v22.toNat, 0]
@[reducible] def k0_t2_loop : Scf.Loop 32 :=
  let c0_i32_16 : BitVec 32 := 0#32
  let c8_i32_17 : BitVec 32 := 8#32
  let v17 : BitVec 32 := Scalar.addi c0_i32_16 c8_i32_17
  let c1_i32_18 : BitVec 32 := 1#32
  ⟨c0_i32_16, v17, c1_i32_18⟩
def k0_mult2 (k0_t2 : Fin k0_t2_loop.trips) : BitVec 32 :=
  let c0_i32_16 : BitVec 32 := 0#32
  let c1_i32_18 : BitVec 32 := 1#32
  let arg5 : BitVec 32 := Scf.iv c0_i32_16 c1_i32_18 k0_t2
  let c512_i32 : BitVec 32 := 512#32
  let v18 : BitVec 32 := Scalar.muli arg5 c512_i32
  v18
def k0_off2 (k0_t2 : Fin k0_t2_loop.trips) : Fin 2 → Nat :=
  let c0_i32_16 : BitVec 32 := 0#32
  let c1_i32_18 : BitVec 32 := 1#32
  let arg5 : BitVec 32 := Scf.iv c0_i32_16 c1_i32_18 k0_t2
  let c512_i32 : BitVec 32 := 512#32
  let v18 : BitVec 32 := Scalar.muli arg5 c512_i32
  let v19 : BitVec 32 := v18
  let v22 : Index := Scalar.indexCast v19
  let c0_22 : Index := 0#32
  ![v22.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x16x4096x128_S64x4096x128 : S4x16x4096x128.ShapeCasts S64x4096x128
  inb_S2x4096x128_S1x4096x128_0_0_0 : ∀ a, (![0, 0, 0] : Fin 3 → Nat) a + S1x4096x128.size a ≤ S2x4096x128.size a
  h_S1x4096x128 : 0 < S1x4096x128.numel
  shapeCasts_S1x4096x128_S4096x128 : S1x4096x128.ShapeCasts S4096x128
  bitsLt_bf16_f32 : FTy.bits .bf16 < FTy.bits .f32
  squeezes_S1x4096x128_S4096x128 : S1x4096x128.Squeezes S4096x128
  h_S512x128 : 0 < S512x128.numel
  shapeCasts_S512x128_S512x128 : S512x128.ShapeCasts S512x128
  inb_S2x4096x128_S1x4096x128_1_0_0 : ∀ a, (![1, 0, 0] : Fin 3 → Nat) a + S1x4096x128.size a ≤ S2x4096x128.size a
  shapeCasts_S64x4096x128_S4x16x4096x128 : S64x4096x128.ShapeCasts S4x16x4096x128
  dot_S4096x128_S4096x128_S128x128_0_0_1_1_n_n_wf : DotDims.WF S4096x128 S4096x128 S128x128 [0] [0] [1] [1] [] []
  dot_S512x128_S128x128_S512x128_1_0_0_1_n_n_wf : DotDims.WF S512x128 S128x128 S512x128 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x128.size a ≤ S4096x128.size a
  k0_t2_ok : k0_t2_loop.OK
  k0_mult2_dvd : ∀ k0_t2 : Fin k0_t2_loop.trips, 512 ∣ (k0_mult2 k0_t2).toNat
  k0_off2_inb : ∀ k0_t2 : Fin k0_t2_loop.trips, ∀ a, (k0_off2 k0_t2) a + S512x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x128.size a ≤ S64x4096x128.size a
  hwx0_0 : ∀ i : grid0.Coords, EltTy.bits .f32 = 32 ∨ (Rect.block (s := S64x4096x128) S2x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x4096x128.size a ≤ S64x4096x128.size a
  hwx0_1 : ∀ i : grid0.Coords, EltTy.bits .f32 = 32 ∨ (Rect.block (s := S64x4096x128) S2x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x4096x128.size a ≤ S64x4096x128.size a
  hwx0_2 : ∀ i : grid0.Coords, EltTy.bits .f32 = 32 ∨ (Rect.block (s := S64x4096x128) S2x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x4096x128.size a ≤ S64x4096x128.size a
  hwx0_3 : ∀ i : grid0.Coords, EltTy.bits .f32 = 32 ∨ (Rect.block (s := S64x4096x128) S2x4096x128.size (cc0_transform_3 i) (hinb0_3 i)).WholeWords (EltTy.packing .f32)

variable [Facts₀]

def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v0) S2x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x4096x128 : Shape := ⟨4, ![4, 16, 4096, 128]⟩
abbrev S4x16x128x128 : Shape := ⟨4, ![4, 16, 128, 128]⟩

abbrev nBuf : Space → Nat
  | .hbm => 5
  | .vmem => 0
  | .smem => 0
  | _ => 0

abbrev bufTy : (tb : Table) → Fin (tcTables nBuf tb) → BufTy
  | .hbm, ⟨0, _⟩ => ⟨S4x16x4096x128, .f32⟩
  | .hbm, ⟨1, _⟩ => ⟨S4x16x4096x128, .f32⟩
  | .hbm, ⟨2, _⟩ => ⟨S4x16x4096x128, .f32⟩
  | .hbm, ⟨3, _⟩ => ⟨S4x16x128x128, .f32⟩
  | .hbm, ⟨4, _⟩ => ⟨S4x16x4096x128, .f32⟩
  | _, _ => ⟨S4x16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4x16x4096x128_S4x16x4096x128_S4x16x128x128_2_2_3_3_01_01_wf : DotDims.WF S4x16x4096x128 S4x16x4096x128 S4x16x128x128 [2] [2] [3] [3] [0, 1] [0, 1]
  dot_S4x16x4096x128_S4x16x128x128_S4x16x4096x128_3_2_2_3_01_01_wf : DotDims.WF S4x16x4096x128 S4x16x128x128 S4x16x4096x128 [3] [2] [2] [3] [0, 1] [0, 1]

variable [Facts₀]

def dot_S4x16x4096x128_S4x16x4096x128_S4x16x128x128_2_2_3_3_01_01 : DotDims S4x16x4096x128 S4x16x4096x128 S4x16x128x128 where
  lhsContracting := [2]
  rhsContracting := [2]
  lhsNonContracting := [3]
  rhsNonContracting := [3]
  lhsBatch := [0, 1]
  rhsBatch := [0, 1]
  wf := dot_S4x16x4096x128_S4x16x4096x128_S4x16x128x128_2_2_3_3_01_01_wf
def dot_S4x16x4096x128_S4x16x128x128_S4x16x4096x128_3_2_2_3_01_01 : DotDims S4x16x4096x128 S4x16x128x128 S4x16x4096x128 where
  lhsContracting := [3]
  rhsContracting := [2]
  lhsNonContracting := [2]
  rhsNonContracting := [3]
  lhsBatch := [0, 1]
  rhsBatch := [0, 1]
  wf := dot_S4x16x4096x128_S4x16x128x128_S4x16x4096x128_3_2_2_3_01_01_wf

class Facts : Prop extends Facts₀ where

variable [Facts]
-- ==== Proof.Words.HeadLoops.lean ====
/-
  The two chunk loops of the linear-attention body, each gone through by an invariant.

  A grid point's block holds two heads. For head h the body first forms kv = Kᵀ·V (a [128,128] matrix) from the
  head's K and V rows, then walks the head's 4096 query rows in eight chunks of 512: chunk k loads rows
  [512k, 512k+512) of Q, multiplies them by kv, and stores the [512,128] product over the same rows of the output.
  Head h of a [2,4096,128] block is reached through a view: the slice of row h with its unit axis dropped, a
  [4096,128] view of the same buffer. What the loop leaves in the output buffer is therefore a list of writes
  THROUGH THAT VIEW, one [512,128] piece per trip, over whatever the buffer held at loop entry; the invariant
  before trip k is "the pieces of the trips before k, newest first".
-/
import proofs.«160901_j80161269613187_2_alg».proof.Proof.Gen.Kernel.Loops
import proofs.«160901_j80161269613187_2_alg».proof.Proof.Gen.Kernel.Frame

set_option maxRecDepth 8192
set_option maxHeartbeats 4000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ## The two heads of a block as [4096,128] views -/

/-- Head 0 of a two-head block: row 0 sliced out, the unit axis dropped. -/
abbrev head0 (a : Memref sig .tc .vmem S2x4096x128 .f32) : Memref sig .tc .vmem S4096x128 .f32 :=
  (a.slice (Rect.unit (s := S2x4096x128) ![0, 0, 0] S1x4096x128.size inb_S2x4096x128_S1x4096x128_0_0_0) (fun _ => rfl)).squeeze S4096x128 squeezes_S1x4096x128_S4096x128
/-- Head 1 of a two-head block. -/
abbrev head1 (a : Memref sig .tc .vmem S2x4096x128 .f32) : Memref sig .tc .vmem S4096x128 .f32 :=
  (a.slice (Rect.unit (s := S2x4096x128) ![1, 0, 0] S1x4096x128.size inb_S2x4096x128_S1x4096x128_1_0_0) (fun _ => rfl)).squeeze S4096x128 squeezes_S1x4096x128_S4096x128

/-- Any rectangle of head 0 lies among the block's own elements: a slice of a re-laid slice of the block. -/
theorem head0_sub (a : Memref sig .tc .vmem S2x4096x128 .f32) (r : Rect S4096x128) :
    ((head0 a).access r).set ⊆ a.view.set :=
  (View.set_slice_subset _ r).trans (View.set_reshape_subset _ _ (View.set_slice_subset _ _))
/-- The same for head 1. -/
theorem head1_sub (a : Memref sig .tc .vmem S2x4096x128 .f32) (r : Rect S4096x128) :
    ((head1 a).access r).set ⊆ a.view.set :=
  (View.set_slice_subset _ r).trans (View.set_reshape_subset _ _ (View.set_slice_subset _ _))

/-! ## One trip -/

/-- What a trip touches: the query block, read only, and the output block, written. -/
abbrev Trip (c : Dev nD) (arg1 arg4 : Memref sig .tc .vmem S2x4096x128 .f32)
    (X1 : BufTy.Contents (Elt F) arg1.view.ty) (f4 : BufTy.Contents (Elt F) arg4.view.ty) : sProp 𝕄G :=
  iprop((arg1.view.loc (c : Thread nD τ) ↦[arg1.view.set]{fullShare} X1) ∗ (arg4.view.loc (c : Thread nD τ) ↦[arg4.view.set]{fullShare} f4))

/-- Rows [512k, 512k+512) of head 0 of the query block. -/
def qChunk1 (arg1 : Memref sig .tc .vmem S2x4096x128 .f32) (X1 : BufTy.Contents (Elt F) arg1.view.ty) (k : Fin k0_t1_loop.trips) : Vec F S512x128 .f32 :=
  (head0 arg1).view.readAt (Elt F) (Rect.unit (s := S4096x128) (k0_off1 k) S512x128.size (k0_off1_inb k)).toLoadRect X1
/-- Rows [512k, 512k+512) of head 1 of the query block. -/
def qChunk2 (arg1 : Memref sig .tc .vmem S2x4096x128 .f32) (X1 : BufTy.Contents (Elt F) arg1.view.ty) (k : Fin k0_t2_loop.trips) : Vec F S512x128 .f32 :=
  (head1 arg1).view.readAt (Elt F) (Rect.unit (s := S4096x128) (k0_off2 k) S512x128.size (k0_off2_inb k)).toLoadRect X1

/-- Trip k of head 0 writes one piece: over rows [512k, 512k+512), the chunk of Q times Kᵀ·V. -/
def piece1 (arg1 : Memref sig .tc .vmem S2x4096x128 .f32) (X1 : BufTy.Contents (Elt F) arg1.view.ty) (v0 v3 : Vec F S1x4096x128 .f32)
    (k : Fin k0_t1_loop.trips) : View.Piece (Elt F) S4096x128 .f32 :=
  ⟨Rect.unit (s := S4096x128) (k0_off1 k) S512x128.size (k0_off1_inb k), k0_pay1 v0 v3 (qChunk1 arg1 X1 k)⟩
/-- Trip k of head 1 likewise. -/
def piece2 (arg1 : Memref sig .tc .vmem S2x4096x128 .f32) (X1 : BufTy.Contents (Elt F) arg1.view.ty) (v9 v12 : Vec F S1x4096x128 .f32)
    (k : Fin k0_t2_loop.trips) : View.Piece (Elt F) S4096x128 .f32 :=
  ⟨Rect.unit (s := S4096x128) (k0_off2 k) S512x128.size (k0_off2_inb k), k0_pay2 v9 v12 (qChunk2 arg1 X1 k)⟩

/-- ONE TRIP of head 0's loop at a symbolic k: the chunk of Q is loaded through head 0 of the query block, the rows
    about to be overwritten are loaded and dropped, and the product is stored through head 0 of the output block —
    one more write through that view, over whatever the buffer held. -/
theorem trip1 (𝒱 : Variants) (c : Dev nD) (bd : Option 𝒱.V) (i : grid0.Coords)
    (arg1 : Memref sig .tc .vmem S2x4096x128 .f32) (harg1 : arg1.IsWhole) (arg2 : Memref sig .tc .vmem S2x4096x128 .f32) (harg2 : arg2.IsWhole)
    (arg3 : Memref sig .tc .vmem S2x4096x128 .f32) (harg3 : arg3.IsWhole) (arg4 : Memref sig .tc .vmem S2x4096x128 .f32) (harg4 : arg4.IsWhole)
    (v0 v3 : Vec F S1x4096x128 .f32) (X1 : BufTy.Contents (Elt F) arg1.view.ty) (k : Fin k0_t1_loop.trips)
    (E : Set ℕ) (f4 : BufTy.Contents (Elt F) arg4.view.ty) :
    Trip (F := F) c arg1 arg4 X1 f4
      ⊢ wp frame (wpE (defs₀ (F := F)) 𝒱 (c : Thread nD τ) bd) E (k0_t1_body (F := F) i arg1 harg1 arg2 harg2 arg3 harg3 arg4 harg4 v0 v3 k PUnit.unit)
          (fun _ => Trip (F := F) c arg1 arg4 X1 ((head0 arg4).view.writes (Elt F) f4 [piece1 arg1 X1 v0 v3 k])) := by
  unfold k0_t1_body
  iintro ⟨HR1, HW4⟩
  sl_exec
  iapply (wp_store_writes₀ 𝒱 (c : Thread nD τ) bd E (m := head0 arg4) (S := arg4.view.set) (f := f4) (head0_sub arg4 _)) $$ HW4
  iintro HW4
  sl_step
  isplitl [HR1]; · iexact HR1
  iexact HW4

/-- ONE TRIP of head 1's loop. -/
theorem trip2 (𝒱 : Variants) (c : Dev nD) (bd : Option 𝒱.V) (i : grid0.Coords)
    (arg1 : Memref sig .tc .vmem S2x4096x128 .f32) (harg1 : arg1.IsWhole) (arg2 : Memref sig .tc .vmem S2x4096x128 .f32) (harg2 : arg2.IsWhole)
    (arg3 : Memref sig .tc .vmem S2x4096x128 .f32) (harg3 : arg3.IsWhole) (arg4 : Memref sig .tc .vmem S2x4096x128 .f32) (harg4 : arg4.IsWhole)
    (v9 v12 : Vec F S1x4096x128 .f32) (X1 : BufTy.Contents (Elt F) arg1.view.ty) (k : Fin k0_t2_loop.trips)
    (E : Set ℕ) (f4 : BufTy.Contents (Elt F) arg4.view.ty) :
    Trip (F := F) c arg1 arg4 X1 f4
      ⊢ wp frame (wpE (defs₀ (F := F)) 𝒱 (c : Thread nD τ) bd) E (k0_t2_body (F := F) i arg1 harg1 arg2 harg2 arg3 harg3 arg4 harg4 v9 v12 k PUnit.unit)
          (fun _ => Trip (F := F) c arg1 arg4 X1 ((head1 arg4).view.writes (Elt F) f4 [piece2 arg1 X1 v9 v12 k])) := by
  unfold k0_t2_body
  iintro ⟨HR1, HW4⟩
  sl_exec
  iapply (wp_store_writes₀ 𝒱 (c : Thread nD τ) bd E (m := head1 arg4) (S := arg4.view.set) (f := f4) (head1_sub arg4 _)) $$ HW4
  iintro HW4
  sl_step
  isplitl [HR1]; · iexact HR1
  iexact HW4

/-! ## The pieces of the trips before k, newest first -/

/-- Head 0: the pieces of trips 0 … k-1. -/
def pb1 (arg1 : Memref sig .tc .vmem S2x4096x128 .f32) (X1 : BufTy.Contents (Elt F) arg1.view.ty) (v0 v3 : Vec F S1x4096x128 .f32) :
    ℕ → List (View.Piece (Elt F) S4096x128 .f32)
  | 0 => []
  | k + 1 => if h : k < k0_t1_loop.trips then piece1 arg1 X1 v0 v3 ⟨k, h⟩ :: pb1 arg1 X1 v0 v3 k else pb1 arg1 X1 v0 v3 k
/-- Head 1: the pieces of trips 0 … k-1. -/
def pb2 (arg1 : Memref sig .tc .vmem S2x4096x128 .f32) (X1 : BufTy.Contents (Elt F) arg1.view.ty) (v9 v12 : Vec F S1x4096x128 .f32) :
    ℕ → List (View.Piece (Elt F) S4096x128 .f32)
  | 0 => []
  | k + 1 => if h : k < k0_t2_loop.trips then piece2 arg1 X1 v9 v12 ⟨k, h⟩ :: pb2 arg1 X1 v9 v12 k else pb2 arg1 X1 v9 v12 k

theorem pb1_succ (arg1 : Memref sig .tc .vmem S2x4096x128 .f32) (X1 : BufTy.Contents (Elt F) arg1.view.ty) (v0 v3 : Vec F S1x4096x128 .f32)
    (k : Fin k0_t1_loop.trips) : pb1 arg1 X1 v0 v3 (k.val + 1) = [piece1 arg1 X1 v0 v3 k] ++ pb1 arg1 X1 v0 v3 k.val := by
  rw [pb1, dif_pos k.isLt]; rfl
theorem pb2_succ (arg1 : Memref sig .tc .vmem S2x4096x128 .f32) (X1 : BufTy.Contents (Elt F) arg1.view.ty) (v9 v12 : Vec F S1x4096x128 .f32)
    (k : Fin k0_t2_loop.trips) : pb2 arg1 X1 v9 v12 (k.val + 1) = [piece2 arg1 X1 v9 v12 k] ++ pb2 arg1 X1 v9 v12 k.val := by
  rw [pb2, dif_pos k.isLt]; rfl

/-! ## The invariants -/

/-- Before trip k of head 0's loop: the query block as it was; the output block at the pieces of the trips before k,
    written through head 0 over the contents G4 it had at loop entry. -/
abbrev inv1 (c : Dev nD) (arg1 arg4 : Memref sig .tc .vmem S2x4096x128 .f32) (v0 v3 : Vec F S1x4096x128 .f32)
    (X1 : BufTy.Contents (Elt F) arg1.view.ty) (G4 : BufTy.Contents (Elt F) arg4.view.ty) (k : ℕ) (_u : PUnit) : sProp 𝕄G :=
  iprop((arg1.view.loc (c : Thread nD τ) ↦[arg1.view.set]{fullShare} X1)
    ∗ (∃ f, (arg4.view.loc (c : Thread nD τ) ↦[arg4.view.set]{fullShare} f) ∗ ⌜f = (head0 arg4).view.writes (Elt F) G4 (pb1 arg1 X1 v0 v3 k)⌝))
/-- Before trip k of head 1's loop, likewise through head 1. -/
abbrev inv2 (c : Dev nD) (arg1 arg4 : Memref sig .tc .vmem S2x4096x128 .f32) (v9 v12 : Vec F S1x4096x128 .f32)
    (X1 : BufTy.Contents (Elt F) arg1.view.ty) (G4 : BufTy.Contents (Elt F) arg4.view.ty) (k : ℕ) (_u : PUnit) : sProp 𝕄G :=
  iprop((arg1.view.loc (c : Thread nD τ) ↦[arg1.view.set]{fullShare} X1)
    ∗ (∃ f, (arg4.view.loc (c : Thread nD τ) ↦[arg4.view.set]{fullShare} f) ∗ ⌜f = (head1 arg4).view.writes (Elt F) G4 (pb2 arg1 X1 v9 v12 k)⌝))

/-- Head 0's loop preserves its invariant: one trip conses its piece onto the list. -/
theorem step1 (𝒱 : Variants) (c : Dev nD) (bd : Option 𝒱.V) (E : Set ℕ) (i : grid0.Coords)
    (arg1 : Memref sig .tc .vmem S2x4096x128 .f32) (harg1 : arg1.IsWhole) (arg2 : Memref sig .tc .vmem S2x4096x128 .f32) (harg2 : arg2.IsWhole)
    (arg3 : Memref sig .tc .vmem S2x4096x128 .f32) (harg3 : arg3.IsWhole) (arg4 : Memref sig .tc .vmem S2x4096x128 .f32) (harg4 : arg4.IsWhole)
    (v0 v3 : Vec F S1x4096x128 .f32) (X1 : BufTy.Contents (Elt F) arg1.view.ty) (G4 : BufTy.Contents (Elt F) arg4.view.ty)
    (k : Fin k0_t1_loop.trips) (acc : Unit) :
    inv1 (F := F) c arg1 arg4 v0 v3 X1 G4 k.val acc
      ⊢ wp frame (wpE (defs₀ (F := F)) 𝒱 (c : Thread nD τ) bd) E (k0_t1_body (F := F) i arg1 harg1 arg2 harg2 arg3 harg3 arg4 harg4 v0 v3 k acc)
          (inv1 (F := F) c arg1 arg4 v0 v3 X1 G4 (k.val + 1)) := by
  iintro ⟨HR1, ⟨%f4, HW4, %h4⟩⟩
  iapply (wp_wand_r Idealize.ShloMosaic.frame (wpE (defs₀ (F := F)) 𝒱 (c : Thread nD τ) bd) E)
  isplitl [HR1 HW4]
  · iapply (trip1 (F := F) 𝒱 c bd i arg1 harg1 arg2 harg2 arg3 harg3 arg4 harg4 v0 v3 X1 k E f4)
    isplitl [HR1]; · iexact HR1
    iexact HW4
  · iintro %_ ⟨HR1, HW4⟩
    isplitl [HR1]; · iexact HR1
    rw [pb1_succ]
    iexists _; isplitl [HW4]; · iexact HW4
    ipureintro; rw [h4, ← View.writes_append]

/-- Head 1's loop preserves its invariant: one trip conses its piece onto the list. -/
theorem step2 (𝒱 : Variants) (c : Dev nD) (bd : Option 𝒱.V) (E : Set ℕ) (i : grid0.Coords)
    (arg1 : Memref sig .tc .vmem S2x4096x128 .f32) (harg1 : arg1.IsWhole) (arg2 : Memref sig .tc .vmem S2x4096x128 .f32) (harg2 : arg2.IsWhole)
    (arg3 : Memref sig .tc .vmem S2x4096x128 .f32) (harg3 : arg3.IsWhole) (arg4 : Memref sig .tc .vmem S2x4096x128 .f32) (harg4 : arg4.IsWhole)
    (v9 v12 : Vec F S1x4096x128 .f32) (X1 : BufTy.Contents (Elt F) arg1.view.ty) (G4 : BufTy.Contents (Elt F) arg4.view.ty)
    (k : Fin k0_t2_loop.trips) (acc : Unit) :
    inv2 (F := F) c arg1 arg4 v9 v12 X1 G4 k.val acc
      ⊢ wp frame (wpE (defs₀ (F := F)) 𝒱 (c : Thread nD τ) bd) E (k0_t2_body (F := F) i arg1 harg1 arg2 harg2 arg3 harg3 arg4 harg4 v9 v12 k acc)
          (inv2 (F := F) c arg1 arg4 v9 v12 X1 G4 (k.val + 1)) := by
  iintro ⟨HR1, ⟨%f4, HW4, %h4⟩⟩
  iapply (wp_wand_r Idealize.ShloMosaic.frame (wpE (defs₀ (F := F)) 𝒱 (c : Thread nD τ) bd) E)
  isplitl [HR1 HW4]
  · iapply (trip2 (F := F) 𝒱 c bd i arg1 harg1 arg2 harg2 arg3 harg3 arg4 harg4 v9 v12 X1 k E f4)
    isplitl [HR1]; · iexact HR1
    iexact HW4
  · iintro %_ ⟨HR1, HW4⟩
    isplitl [HR1]; · iexact HR1
    rw [pb2_succ]
    iexists _; isplitl [HW4]; · iexact HW4
    ipureintro; rw [h4, ← View.writes_append]

end Cert.Kernel.Body

end
-- ==== Proof.Words.BlockValue.lean ====
/-
  What the body leaves in the output block, as a function of the three input blocks.

  For head h, row r, column e the output is  Σ_d Q[h,r,d] · (Σ_s K[h,s,d] · V[h,s,e]) — written here through the
  kernel's own payload: the payload of head h applied to head h's rows of K and V and to the chunk of Q that holds
  row r, read at that row's place in the chunk. The loops leave each head as eight [512,128] pieces written through
  the head's view; each piece agrees with the head's function on its rows and the eight cover the head, so the
  head reads as that function whatever the buffer held before. Head 1's writes do not touch
  head 0's elements, so the two heads are read one after the other.
-/
import proofs.«160901_j80161269613187_2_alg».proof.Proof.Words.HeadLoops
import Idealize.ShloMosaic.Lib.WholeRead
import Idealize.ShloMosaic.Lib.ValueLayout
import Idealize.ShloMosaic.Lib.ValueIdx
import Idealize.ShloMosaic.Lib.Writes

set_option maxRecDepth 8192

noncomputable section

namespace Cert.Kernel.Body

open Cert.Kernel Cert.Kernel.Gen
open Idealize.ShloMosaic Idealize.ShloMosaic.ValueIdx

variable {F : FTy → Type} [FloatOps F]

/-! ## Rows of a block -/

/-- Head h's 4096 rows of a [2,4096,128] block, as the [1,4096,128] vector a load of that head reads. -/
def headRows (x : Vec F S2x4096x128 .f32) (h : Fin 2) : Vec F S1x4096x128 .f32 :=
  fun j => x (ix3 h (⟨(j 1).val, (j 1).isLt⟩ : Fin 4096) (⟨(j 2).val, (j 2).isLt⟩ : Fin 128))

/-- Rows [512k, 512k+512) of head h, as a [512,128] vector (k < 8 in every use; the row is taken modulo 4096 so that the
    definition needs no bound). -/
def chunkRows (x : Vec F S2x4096x128 .f32) (h : Fin 2) (k : ℕ) : Vec F S512x128 .f32 :=
  fun j => x (ix3 h (⟨(512 * k + (j 0).val) % 4096, Nat.mod_lt _ (by decide)⟩ : Fin 4096) (⟨(j 1).val, (j 1).isLt⟩ : Fin 128))

/-! ## Head 0 -/

/-- What head 0 of the output block holds, as a [4096,128] function of the input blocks: row r, column e is the
    product's entry for Q's chunk r / 512 at its row r % 512. -/
def headOut0 (x1 x2 x3 : Vec F S2x4096x128 .f32) : Vec F S4096x128 .f32 := fun z =>
  k0_pay1 (headRows x2 0) (headRows x3 0) (chunkRows x1 0 ((z 0).val / 512))
    (ix2 (⟨(z 0).val % 512, Nat.mod_lt _ (by decide)⟩ : Fin 512) (⟨(z 1).val, (z 1).isLt⟩ : Fin 128))

/-- A load of head 0's rows through a whole block held at the contents that read x reads head 0's rows of x. -/
theorem load_head0 (M : Memref sig .tc .vmem S2x4096x128 .f32) (hM : M.IsWhole) (x : Vec F S2x4096x128 .f32) :
    M.view.readAt (Elt F) (Rect.unit (s := S2x4096x128) ![0, 0, 0] S1x4096x128.size inb_S2x4096x128_S1x4096x128_0_0_0).toLoadRect (hM.unread x)
      = headRows x 0 := by
  funext j
  rw [hM.readAt_unread]
  unfold headRows
  congr 1
  funext a
  apply Fin.ext
  have h0 : (j 0).val < 1 := (j 0).isLt
  match a with
  | ⟨0, _⟩ => show 0 + 1 * (j 0).val = 0; omega
  | ⟨1, _⟩ => show 0 + 1 * (j 1).val = (j 1).val; omega
  | ⟨2, _⟩ => show 0 + 1 * (j 2).val = (j 2).val; omega

/-- Reading through head 0 of a block at (r, e) is reading the block at (0, r, e): the head's view places its
    index by adding the unit axis back and offsetting it by 0. -/
theorem head0_read (M : Memref sig .tc .vmem S2x4096x128 .f32) (g : BufTy.Contents (Elt F) M.view.ty) (z : S4096x128.Idx) :
    (head0 M).view.read (Elt F) g z
      = M.view.read (Elt F) g (ix3 (0 : Fin 2) (⟨(z 0).val, (z 0).isLt⟩ : Fin 4096) (⟨(z 1).val, (z 1).isLt⟩ : Fin 128)) := by
  show M.view.read (Elt F) g ((Rect.unit (s := S2x4096x128) ![0, 0, 0] S1x4096x128.size inb_S2x4096x128_S1x4096x128_0_0_0).emb
    (Shape.reshapeEquiv squeezes_S1x4096x128_S4096x128.numel_eq z)) = _
  congr 1
  have hz : z = ix2 (⟨(z 0).val, (z 0).isLt⟩ : Fin 4096) (⟨(z 1).val, (z 1).isLt⟩ : Fin 128) :=
    funext fun a => Fin.ext (by match a with | ⟨0, _⟩ => rfl | ⟨1, _⟩ => rfl)
  conv_lhs => rw [hz, reshapeEquiv_ix2_1ab]
  funext a
  apply Fin.ext
  match a with
  | ⟨0, _⟩ => show 0 + 1 * 0 = 0; omega
  | ⟨1, _⟩ => show 0 + 1 * (z 0).val = (z 0).val; omega
  | ⟨2, _⟩ => show 0 + 1 * (z 1).val = (z 1).val; omega

theorem k0_off1_0 (k : Fin k0_t1_loop.trips) : k0_off1 k 0 = 512 * k.val := by rw [k0_off1_eq]; rfl
theorem k0_off1_1 (k : Fin k0_t1_loop.trips) : k0_off1 k 1 = 0 := by rw [k0_off1_eq]; rfl
theorem trips1 : k0_t1_loop.trips = 8 := by decide +kernel

/-- The chunk trip k loads through head 0 of the query block is rows [512k, 512k+512) of head 0 of that block. -/
theorem qChunk1_eq (M : Memref sig .tc .vmem S2x4096x128 .f32) (hM : M.IsWhole) (x : Vec F S2x4096x128 .f32) (k : Fin k0_t1_loop.trips) :
    qChunk1 M (hM.unread x) k = chunkRows x 0 k.val := by
  have hk : k.val < 8 := lt_of_lt_of_eq k.isLt trips1
  funext j
  have hj0 : (j 0).val < 512 := (j 0).isLt
  have hj1 : (j 1).val < 128 := (j 1).isLt
  unfold qChunk1
  show View.readAt (Elt F) ((M.view.slice (Rect.unit (s := S2x4096x128) ![0, 0, 0] S1x4096x128.size inb_S2x4096x128_S1x4096x128_0_0_0)).reshape S4096x128
      squeezes_S1x4096x128_S4096x128.numel_eq) (Rect.unit (s := S4096x128) (k0_off1 k) S512x128.size (k0_off1_inb k)).toLoadRect (hM.unread x) j = _
  rw [hM.readAt_slice_reshape_unread]
  unfold chunkRows
  congr 1
  have hB : (Rect.unit (s := S4096x128) (k0_off1 k) S512x128.size (k0_off1_inb k)).toLoadRect.idx j
      = ix2 (⟨512 * k.val + (j 0).val, by omega⟩ : Fin 4096) (⟨(j 1).val, hj1⟩ : Fin 128) :=
    funext fun a => Fin.ext (by
      match a with
      | ⟨0, _⟩ => show k0_off1 k 0 + 1 * (j 0).val = 512 * k.val + (j 0).val; rw [k0_off1_0]; omega
      | ⟨1, _⟩ => show k0_off1 k 1 + 1 * (j 1).val = (j 1).val; rw [k0_off1_1]; omega)
  rw [hB, reshapeEquiv_ix2_1ab]
  funext a
  apply Fin.ext
  match a with
  | ⟨0, _⟩ => show 0 + 1 * 0 = 0; omega
  | ⟨1, _⟩ => show 0 + 1 * (512 * k.val + (j 0).val) = (512 * k.val + (j 0).val) % 4096; omega
  | ⟨2, _⟩ => show 0 + 1 * (j 1).val = (j 1).val; omega

/-- Trip k's piece agrees with head 0's function on its rows: row 512k + r is in chunk k at row r. -/
theorem piece1_agrees (M : Memref sig .tc .vmem S2x4096x128 .f32) (hM : M.IsWhole) (x1 x2 x3 : Vec F S2x4096x128 .f32)
    (k : Fin k0_t1_loop.trips) (x : (piece1 M (hM.unread x1) (headRows x2 0) (headRows x3 0) k).1.shape.Idx) :
    (piece1 M (hM.unread x1) (headRows x2 0) (headRows x3 0) k).2 x
      = headOut0 x1 x2 x3 ((piece1 M (hM.unread x1) (headRows x2 0) (headRows x3 0) k).1.emb x) := by
  have hk : k.val < 8 := lt_of_lt_of_eq k.isLt trips1
  have hx0 : (x 0).val < 512 := (x 0).isLt
  have hx1 : (x 1).val < 128 := (x 1).isLt
  have he0 : (((piece1 M (hM.unread x1) (headRows x2 0) (headRows x3 0) k).1.emb x) 0).val = 512 * k.val + (x 0).val := by
    show k0_off1 k 0 + 1 * (x 0).val = _; rw [k0_off1_0]; omega
  have he1 : (((piece1 M (hM.unread x1) (headRows x2 0) (headRows x3 0) k).1.emb x) 1).val = (x 1).val := by
    show k0_off1 k 1 + 1 * (x 1).val = _; rw [k0_off1_1]; omega
  unfold headOut0
  rw [show (((piece1 M (hM.unread x1) (headRows x2 0) (headRows x3 0) k).1.emb x) 0).val / 512 = k.val from by omega]
  have hx : ix2 (⟨(((piece1 M (hM.unread x1) (headRows x2 0) (headRows x3 0) k).1.emb x) 0).val % 512, Nat.mod_lt _ (by decide)⟩ : Fin 512)
      (⟨(((piece1 M (hM.unread x1) (headRows x2 0) (headRows x3 0) k).1.emb x) 1).val,
        (((piece1 M (hM.unread x1) (headRows x2 0) (headRows x3 0) k).1.emb x) 1).isLt⟩ : Fin 128) = x :=
    funext fun a => Fin.ext (by
      match a with
      | ⟨0, _⟩ => show (((piece1 M (hM.unread x1) (headRows x2 0) (headRows x3 0) k).1.emb x) 0).val % 512 = (x 0).val; omega
      | ⟨1, _⟩ => show (((piece1 M (hM.unread x1) (headRows x2 0) (headRows x3 0) k).1.emb x) 1).val = (x 1).val; omega)
  rw [hx]
  show k0_pay1 (headRows x2 0) (headRows x3 0) (qChunk1 M (hM.unread x1) k) x = _
  rw [qChunk1_eq]

/-- Every piece of the list is some trip's piece. -/
theorem mem_pb1 (M : Memref sig .tc .vmem S2x4096x128 .f32) (X1 : BufTy.Contents (Elt F) M.view.ty) (v0 v3 : Vec F S1x4096x128 .f32) :
    ∀ (n : ℕ) (p : View.Piece (Elt F) S4096x128 .f32), p ∈ pb1 M X1 v0 v3 n → ∃ k : Fin k0_t1_loop.trips, p = piece1 M X1 v0 v3 k
  | 0, p, hp => absurd hp List.not_mem_nil
  | n + 1, p, hp => by
    rw [pb1] at hp
    split at hp
    · rename_i hn
      rcases List.mem_cons.mp hp with rfl | hp'
      · exact ⟨⟨n, hn⟩, rfl⟩
      · exact mem_pb1 M X1 v0 v3 n p hp'
    · exact mem_pb1 M X1 v0 v3 n p hp

/-- Trip k's piece is in the list of the trips before any later n. -/
theorem piece1_mem (M : Memref sig .tc .vmem S2x4096x128 .f32) (X1 : BufTy.Contents (Elt F) M.view.ty) (v0 v3 : Vec F S1x4096x128 .f32)
    (k : Fin k0_t1_loop.trips) : ∀ n : ℕ, k.val < n → piece1 M X1 v0 v3 k ∈ pb1 M X1 v0 v3 n
  | 0, h => absurd h (Nat.not_lt_zero _)
  | n + 1, h => by
    rw [pb1]
    by_cases hn : n < k0_t1_loop.trips
    · rw [dif_pos hn]
      by_cases e : k.val = n
      · have : k = ⟨n, hn⟩ := Fin.ext e
        rw [this]; exact List.mem_cons_self
      · exact List.mem_cons_of_mem _ (piece1_mem M X1 v0 v3 k n (by omega))
    · rw [dif_neg hn]
      exact piece1_mem M X1 v0 v3 k n (by have := k.isLt; omega)

/-- The eight pieces cover the head: row r lies in chunk r / 512. -/
theorem cover1 (M : Memref sig .tc .vmem S2x4096x128 .f32) (X1 : BufTy.Contents (Elt F) M.view.ty) (v0 v3 : Vec F S1x4096x128 .f32)
    (z : S4096x128.Idx) : ∃ p ∈ pb1 M X1 v0 v3 k0_t1_loop.trips, z ∈ p.1.set := by
  have hz0 : (z 0).val < 4096 := (z 0).isLt
  have hz1 : (z 1).val < 128 := (z 1).isLt
  have hk : (z 0).val / 512 < k0_t1_loop.trips := by rw [trips1]; omega
  refine ⟨piece1 M X1 v0 v3 ⟨(z 0).val / 512, hk⟩, piece1_mem M X1 v0 v3 _ _ hk, ?_⟩
  show z ∈ (Rect.unit (s := S4096x128) (k0_off1 ⟨(z 0).val / 512, hk⟩) S512x128.size (k0_off1_inb _)).set
  rw [Rect.mem_set_unit]
  intro a
  match a with
  | ⟨0, _⟩ => show k0_off1 ⟨(z 0).val / 512, hk⟩ 0 ≤ (z 0).val ∧ (z 0).val < k0_off1 ⟨(z 0).val / 512, hk⟩ 0 + 512
              rw [k0_off1_0]; show 512 * ((z 0).val / 512) ≤ (z 0).val ∧ (z 0).val < 512 * ((z 0).val / 512) + 512; omega
  | ⟨1, _⟩ => show k0_off1 ⟨(z 0).val / 512, hk⟩ 1 ≤ (z 1).val ∧ (z 1).val < k0_off1 ⟨(z 0).val / 512, hk⟩ 1 + 128
              rw [k0_off1_1]; omega

/-- After the eight trips head 0 of the output buffer reads as head 0's function, whatever the buffer held. -/
theorem head0_after (M1 M4 : Memref sig .tc .vmem S2x4096x128 .f32) (h1 : M1.IsWhole) (x1 x2 x3 : Vec F S2x4096x128 .f32)
    (g : BufTy.Contents (Elt F) M4.view.ty) (z : S4096x128.Idx) :
    (head0 M4).view.read (Elt F) ((head0 M4).view.writes (Elt F) g
      (pb1 M1 (h1.unread x1) (headRows x2 0) (headRows x3 0) k0_t1_loop.trips)) z = headOut0 x1 x2 x3 z :=
  View.read_writes_apply_of_pieces _ _ (headOut0 x1 x2 x3) _
    (fun p hp x => by
      obtain ⟨k, rfl⟩ := mem_pb1 M1 _ _ _ _ p hp
      exact piece1_agrees M1 h1 x1 x2 x3 k x)
    z (cover1 M1 _ _ _ z)

/-! ## Head 1 -/

/-- What head 1 of the output block holds, as a [4096,128] function of the input blocks: row r, column e is the
    product's entry for Q's chunk r / 512 at its row r % 512. -/
def headOut1 (x1 x2 x3 : Vec F S2x4096x128 .f32) : Vec F S4096x128 .f32 := fun z =>
  k0_pay2 (headRows x2 1) (headRows x3 1) (chunkRows x1 1 ((z 0).val / 512))
    (ix2 (⟨(z 0).val % 512, Nat.mod_lt _ (by decide)⟩ : Fin 512) (⟨(z 1).val, (z 1).isLt⟩ : Fin 128))

/-- A load of head 1's rows through a whole block held at the contents that read x reads head 1's rows of x. -/
theorem load_head1 (M : Memref sig .tc .vmem S2x4096x128 .f32) (hM : M.IsWhole) (x : Vec F S2x4096x128 .f32) :
    M.view.readAt (Elt F) (Rect.unit (s := S2x4096x128) ![1, 0, 0] S1x4096x128.size inb_S2x4096x128_S1x4096x128_1_0_0).toLoadRect (hM.unread x)
      = headRows x 1 := by
  funext j
  rw [hM.readAt_unread]
  unfold headRows
  congr 1
  funext a
  apply Fin.ext
  have h0 : (j 0).val < 1 := (j 0).isLt
  match a with
  | ⟨0, _⟩ => show 1 + 1 * (j 0).val = 1; omega
  | ⟨1, _⟩ => show 0 + 1 * (j 1).val = (j 1).val; omega
  | ⟨2, _⟩ => show 0 + 1 * (j 2).val = (j 2).val; omega

/-- Reading through head 1 of a block at (r, e) is reading the block at (1, r, e): the head's view places its
    index by adding the unit axis back and offsetting it by 1. -/
theorem head1_read (M : Memref sig .tc .vmem S2x4096x128 .f32) (g : BufTy.Contents (Elt F) M.view.ty) (z : S4096x128.Idx) :
    (head1 M).view.read (Elt F) g z
      = M.view.read (Elt F) g (ix3 (1 : Fin 2) (⟨(z 0).val, (z 0).isLt⟩ : Fin 4096) (⟨(z 1).val, (z 1).isLt⟩ : Fin 128)) := by
  show M.view.read (Elt F) g ((Rect.unit (s := S2x4096x128) ![1, 0, 0] S1x4096x128.size inb_S2x4096x128_S1x4096x128_1_0_0).emb
    (Shape.reshapeEquiv squeezes_S1x4096x128_S4096x128.numel_eq z)) = _
  congr 1
  have hz : z = ix2 (⟨(z 0).val, (z 0).isLt⟩ : Fin 4096) (⟨(z 1).val, (z 1).isLt⟩ : Fin 128) :=
    funext fun a => Fin.ext (by match a with | ⟨0, _⟩ => rfl | ⟨1, _⟩ => rfl)
  conv_lhs => rw [hz, reshapeEquiv_ix2_1ab]
  funext a
  apply Fin.ext
  match a with
  | ⟨0, _⟩ => show 1 + 1 * 0 = 1; omega
  | ⟨1, _⟩ => show 0 + 1 * (z 0).val = (z 0).val; omega
  | ⟨2, _⟩ => show 0 + 1 * (z 1).val = (z 1).val; omega

theorem k0_off2_0 (k : Fin k0_t2_loop.trips) : k0_off2 k 0 = 512 * k.val := by rw [k0_off2_eq]; rfl
theorem k0_off2_1 (k : Fin k0_t2_loop.trips) : k0_off2 k 1 = 0 := by rw [k0_off2_eq]; rfl
theorem trips2 : k0_t2_loop.trips = 8 := by decide +kernel

/-- The chunk trip k loads through head 1 of the query block is rows [512k, 512k+512) of head 1 of that block. -/
theorem qChunk2_eq (M : Memref sig .tc .vmem S2x4096x128 .f32) (hM : M.IsWhole) (x : Vec F S2x4096x128 .f32) (k : Fin k0_t2_loop.trips) :
    qChunk2 M (hM.unread x) k = chunkRows x 1 k.val := by
  have hk : k.val < 8 := lt_of_lt_of_eq k.isLt trips2
  funext j
  have hj0 : (j 0).val < 512 := (j 0).isLt
  have hj1 : (j 1).val < 128 := (j 1).isLt
  unfold qChunk2
  show View.readAt (Elt F) ((M.view.slice (Rect.unit (s := S2x4096x128) ![1, 0, 0] S1x4096x128.size inb_S2x4096x128_S1x4096x128_1_0_0)).reshape S4096x128
      squeezes_S1x4096x128_S4096x128.numel_eq) (Rect.unit (s := S4096x128) (k0_off2 k) S512x128.size (k0_off2_inb k)).toLoadRect (hM.unread x) j = _
  rw [hM.readAt_slice_reshape_unread]
  unfold chunkRows
  congr 1
  have hB : (Rect.unit (s := S4096x128) (k0_off2 k) S512x128.size (k0_off2_inb k)).toLoadRect.idx j
      = ix2 (⟨512 * k.val + (j 0).val, by omega⟩ : Fin 4096) (⟨(j 1).val, hj1⟩ : Fin 128) :=
    funext fun a => Fin.ext (by
      match a with
      | ⟨0, _⟩ => show k0_off2 k 0 + 1 * (j 0).val = 512 * k.val + (j 0).val; rw [k0_off2_0]; omega
      | ⟨1, _⟩ => show k0_off2 k 1 + 1 * (j 1).val = (j 1).val; rw [k0_off2_1]; omega)
  rw [hB, reshapeEquiv_ix2_1ab]
  funext a
  apply Fin.ext
  match a with
  | ⟨0, _⟩ => show 1 + 1 * 0 = 1; omega
  | ⟨1, _⟩ => show 0 + 1 * (512 * k.val + (j 0).val) = (512 * k.val + (j 0).val) % 4096; omega
  | ⟨2, _⟩ => show 0 + 1 * (j 1).val = (j 1).val; omega

/-- Trip k's piece agrees with head 1's function on its rows: row 512k + r is in chunk k at row r. -/
theorem piece2_agrees (M : Memref sig .tc .vmem S2x4096x128 .f32) (hM : M.IsWhole) (x1 x2 x3 : Vec F S2x4096x128 .f32)
    (k : Fin k0_t2_loop.trips) (x : (piece2 M (hM.unread x1) (headRows x2 1) (headRows x3 1) k).1.shape.Idx) :
    (piece2 M (hM.unread x1) (headRows x2 1) (headRows x3 1) k).2 x
      = headOut1 x1 x2 x3 ((piece2 M (hM.unread x1) (headRows x2 1) (headRows x3 1) k).1.emb x) := by
  have hk : k.val < 8 := lt_of_lt_of_eq k.isLt trips2
  have hx0 : (x 0).val < 512 := (x 0).isLt
  have hx1 : (x 1).val < 128 := (x 1).isLt
  have he0 : (((piece2 M (hM.unread x1) (headRows x2 1) (headRows x3 1) k).1.emb x) 0).val = 512 * k.val + (x 0).val := by
    show k0_off2 k 0 + 1 * (x 0).val = _; rw [k0_off2_0]; omega
  have he1 : (((piece2 M (hM.unread x1) (headRows x2 1) (headRows x3 1) k).1.emb x) 1).val = (x 1).val := by
    show k0_off2 k 1 + 1 * (x 1).val = _; rw [k0_off2_1]; omega
  unfold headOut1
  rw [show (((piece2 M (hM.unread x1) (headRows x2 1) (headRows x3 1) k).1.emb x) 0).val / 512 = k.val from by omega]
  have hx : ix2 (⟨(((piece2 M (hM.unread x1) (headRows x2 1) (headRows x3 1) k).1.emb x) 0).val % 512, Nat.mod_lt _ (by decide)⟩ : Fin 512)
      (⟨(((piece2 M (hM.unread x1) (headRows x2 1) (headRows x3 1) k).1.emb x) 1).val,
        (((piece2 M (hM.unread x1) (headRows x2 1) (headRows x3 1) k).1.emb x) 1).isLt⟩ : Fin 128) = x :=
    funext fun a => Fin.ext (by
      match a with
      | ⟨0, _⟩ => show (((piece2 M (hM.unread x1) (headRows x2 1) (headRows x3 1) k).1.emb x) 0).val % 512 = (x 0).val; omega
      | ⟨1, _⟩ => show (((piece2 M (hM.unread x1) (headRows x2 1) (headRows x3 1) k).1.emb x) 1).val = (x 1).val; omega)
  rw [hx]
  show k0_pay2 (headRows x2 1) (headRows x3 1) (qChunk2 M (hM.unread x1) k) x = _
  rw [qChunk2_eq]

/-- Every piece of the list is some trip's piece. -/
theorem mem_pb2 (M : Memref sig .tc .vmem S2x4096x128 .f32) (X1 : BufTy.Contents (Elt F) M.view.ty) (v9 v12 : Vec F S1x4096x128 .f32) :
    ∀ (n : ℕ) (p : View.Piece (Elt F) S4096x128 .f32), p ∈ pb2 M X1 v9 v12 n → ∃ k : Fin k0_t2_loop.trips, p = piece2 M X1 v9 v12 k
  | 0, p, hp => absurd hp List.not_mem_nil
  | n + 1, p, hp => by
    rw [pb2] at hp
    split at hp
    · rename_i hn
      rcases List.mem_cons.mp hp with rfl | hp'
      · exact ⟨⟨n, hn⟩, rfl⟩
      · exact mem_pb2 M X1 v9 v12 n p hp'
    · exact mem_pb2 M X1 v9 v12 n p hp

/-- Trip k's piece is in the list of the trips before any later n. -/
theorem piece2_mem (M : Memref sig .tc .vmem S2x4096x128 .f32) (X1 : BufTy.Contents (Elt F) M.view.ty) (v9 v12 : Vec F S1x4096x128 .f32)
    (k : Fin k0_t2_loop.trips) : ∀ n : ℕ, k.val < n → piece2 M X1 v9 v12 k ∈ pb2 M X1 v9 v12 n
  | 0, h => absurd h (Nat.not_lt_zero _)
  | n + 1, h => by
    rw [pb2]
    by_cases hn : n < k0_t2_loop.trips
    · rw [dif_pos hn]
      by_cases e : k.val = n
      · have : k = ⟨n, hn⟩ := Fin.ext e
        rw [this]; exact List.mem_cons_self
      · exact List.mem_cons_of_mem _ (piece2_mem M X1 v9 v12 k n (by omega))
    · rw [dif_neg hn]
      exact piece2_mem M X1 v9 v12 k n (by have := k.isLt; omega)

/-- The eight pieces cover the head: row r lies in chunk r / 512. -/
theorem cover2 (M : Memref sig .tc .vmem S2x4096x128 .f32) (X1 : BufTy.Contents (Elt F) M.view.ty) (v9 v12 : Vec F S1x4096x128 .f32)
    (z : S4096x128.Idx) : ∃ p ∈ pb2 M X1 v9 v12 k0_t2_loop.trips, z ∈ p.1.set := by
  have hz0 : (z 0).val < 4096 := (z 0).isLt
  have hz1 : (z 1).val < 128 := (z 1).isLt
  have hk : (z 0).val / 512 < k0_t2_loop.trips := by rw [trips2]; omega
  refine ⟨piece2 M X1 v9 v12 ⟨(z 0).val / 512, hk⟩, piece2_mem M X1 v9 v12 _ _ hk, ?_⟩
  show z ∈ (Rect.unit (s := S4096x128) (k0_off2 ⟨(z 0).val / 512, hk⟩) S512x128.size (k0_off2_inb _)).set
  rw [Rect.mem_set_unit]
  intro a
  match a with
  | ⟨0, _⟩ => show k0_off2 ⟨(z 0).val / 512, hk⟩ 0 ≤ (z 0).val ∧ (z 0).val < k0_off2 ⟨(z 0).val / 512, hk⟩ 0 + 512
              rw [k0_off2_0]; show 512 * ((z 0).val / 512) ≤ (z 0).val ∧ (z 0).val < 512 * ((z 0).val / 512) + 512; omega
  | ⟨1, _⟩ => show k0_off2 ⟨(z 0).val / 512, hk⟩ 1 ≤ (z 1).val ∧ (z 1).val < k0_off2 ⟨(z 0).val / 512, hk⟩ 1 + 128
              rw [k0_off2_1]; omega

/-- After the eight trips head 1 of the output buffer reads as head 1's function, whatever the buffer held. -/
theorem head1_after (M1 M4 : Memref sig .tc .vmem S2x4096x128 .f32) (h1 : M1.IsWhole) (x1 x2 x3 : Vec F S2x4096x128 .f32)
    (g : BufTy.Contents (Elt F) M4.view.ty) (z : S4096x128.Idx) :
    (head1 M4).view.read (Elt F) ((head1 M4).view.writes (Elt F) g
      (pb2 M1 (h1.unread x1) (headRows x2 1) (headRows x3 1) k0_t2_loop.trips)) z = headOut1 x1 x2 x3 z :=
  View.read_writes_apply_of_pieces _ _ (headOut1 x1 x2 x3) _
    (fun p hp x => by
      obtain ⟨k, rfl⟩ := mem_pb2 M1 _ _ _ _ p hp
      exact piece2_agrees M1 h1 x1 x2 x3 k x)
    z (cover2 M1 _ _ _ z)

/-! ## The block -/

/-- The output block: head 0's function on row 0, head 1's on row 1. -/
def outBlock (x1 x2 x3 : Vec F S2x4096x128 .f32) : Vec F S2x4096x128 .f32 := fun y =>
  if (y 0).val = 0 then headOut0 x1 x2 x3 (ix2 (⟨(y 1).val, (y 1).isLt⟩ : Fin 4096) (⟨(y 2).val, (y 2).isLt⟩ : Fin 128))
  else headOut1 x1 x2 x3 (ix2 (⟨(y 1).val, (y 1).isLt⟩ : Fin 4096) (⟨(y 2).val, (y 2).isLt⟩ : Fin 128))

/-- No index of head 1 is an element of head 0: their first coordinates differ. -/
theorem head1_emb_ne (M : Memref sig .tc .vmem S2x4096x128 .f32) (y : S2x4096x128.Idx) (hy : (y 0).val = 0) (z' : S4096x128.Idx) :
    (head1 M).view.emb z' ≠ M.view.emb y := by
  intro hEq
  have h' : M.view.emb ((Rect.unit (s := S2x4096x128) ![1, 0, 0] S1x4096x128.size inb_S2x4096x128_S1x4096x128_1_0_0).emb
      (Shape.reshapeEquiv squeezes_S1x4096x128_S4096x128.numel_eq z')) = M.view.emb y := hEq
  have h'' := congrArg (fun i : S2x4096x128.Idx => (i 0).val) (M.view.emb.injective h')
  have : 1 + 1 * ((Shape.reshapeEquiv squeezes_S1x4096x128_S4096x128.numel_eq z') 0).val = (y 0).val := h''
  omega

/-- THE BLOCK AFTER THE BODY: both heads written, the block reads as outBlock of the input blocks, whatever it held. -/
theorem read_after (M1 M4 : Memref sig .tc .vmem S2x4096x128 .f32) (h1 : M1.IsWhole) (x1 x2 x3 : Vec F S2x4096x128 .f32)
    (g : BufTy.Contents (Elt F) M4.view.ty) :
    M4.view.read (Elt F) ((head1 M4).view.writes (Elt F) ((head0 M4).view.writes (Elt F) g
        (pb1 M1 (h1.unread x1) (headRows x2 0) (headRows x3 0) k0_t1_loop.trips))
        (pb2 M1 (h1.unread x1) (headRows x2 1) (headRows x3 1) k0_t2_loop.trips))
      = outBlock x1 x2 x3 := by
  funext y
  have hy0 : (y 0).val < 2 := (y 0).isLt
  have hy : y = ix3 (⟨(y 0).val, hy0⟩ : Fin 2) (⟨(y 1).val, (y 1).isLt⟩ : Fin 4096) (⟨(y 2).val, (y 2).isLt⟩ : Fin 128) :=
    funext fun a => Fin.ext (by match a with | ⟨0, _⟩ => rfl | ⟨1, _⟩ => rfl | ⟨2, _⟩ => rfl)
  unfold outBlock
  by_cases h0 : (y 0).val = 0
  · rw [if_pos h0, View.read_apply, View.writes_apply_of_forall_ne _ _ _ (head1_emb_ne M4 y h0), ← View.read_apply,
      ← head0_after M1 M4 h1 x1 x2 x3 g, head0_read]
    congr 1
    rw [hy]
    funext a; apply Fin.ext
    match a with
    | ⟨0, _⟩ => exact h0
    | ⟨1, _⟩ => rfl
    | ⟨2, _⟩ => rfl
  · have h1' : (y 0).val = 1 := by omega
    rw [if_neg h0, ← head1_after M1 M4 h1 x1 x2 x3 _, head1_read]
    congr 1
    rw [hy]
    funext a; apply Fin.ext
    match a with
    | ⟨0, _⟩ => exact h1'
    | ⟨1, _⟩ => rfl
    | ⟨2, _⟩ => rfl

end Cert.Kernel.Body

end
-- ==== Proof.Words.Body.lean ====
/-
  The pipeline's body and its frame.

  At every grid point the body is handed the point's blocks of Q, K and V (two heads each) and an output block
  holding anything. It loads head 0's K and V, runs head 0's eight chunks, then the same for head 1, and returns.
  It leaves the three inputs as they were and the output block at outBlock of the inputs — a
  function of the inputs alone, since the sixteen chunk stores cover the block. With that as what each point
  writes back, the launch theorem gives the run of the whole program: it terminates, nothing faults, and every
  array ends at what the points' write-backs compose to, the arguments untouched.
-/
import proofs.«160901_j80161269613187_2_alg».proof.Proof.Words.BlockValue
import proofs.«160901_j80161269613187_2_alg».proof.Proof.Gen.Kernel.Frame
import proofs.«160901_j80161269613187_2_alg».proof.Proof.Gen.Kernel.Skeleton
import Idealize.ShloMosaic.Lib.Tactic

set_option maxRecDepth 8192
set_option maxHeartbeats 4000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any whole staging memrefs -/

/-- The body's triple: the three input blocks read x1, x2, x3 and come back as they were; the output block, at
    anything, comes back reading outBlock x1 x2 x3. Each loop is gone through by the counted-loop rule at its invariant,
    one trip proved once over a symbolic trip. -/
theorem kernelRun (c : Dev nD) (E : Set ℕ) (i : grid0.Coords)
    (M1 : Memref sig .tc .vmem S2x4096x128 .f32) (h1 : M1.IsWhole) (M2 : Memref sig .tc .vmem S2x4096x128 .f32) (h2 : M2.IsWhole)
    (M3 : Memref sig .tc .vmem S2x4096x128 .f32) (h3 : M3.IsWhole) (M4 : Memref sig .tc .vmem S2x4096x128 .f32) (h4 : M4.IsWhole)
    (x1 x2 x3 : Vec F S2x4096x128 .f32) (K : PUnit → sProp 𝕄) :
    iprop(owns (c : Thread nD τ) M1 fullShare x1 ∗ owns (c : Thread nD τ) M2 fullShare x2 ∗ owns (c : Thread nD τ) M3 fullShare x3
        ∗ (∃ d, owns (c : Thread nD τ) M4 fullShare d)
        ∗ (iprop(owns (c : Thread nD τ) M1 fullShare x1 ∗ owns (c : Thread nD τ) M2 fullShare x2 ∗ owns (c : Thread nD τ) M3 fullShare x3
            ∗ owns (c : Thread nD τ) M4 fullShare (outBlock x1 x2 x3)) -∗ K ⟨⟩))
      ⊢ wp frame (wpE (defs₀ (F := F)) Variants.none c none) E (cc0__linear_attn_kernel i M1 h1 M2 h2 M3 h3 M4 h4) K := by
  unfold owns
  iintro ⟨⟨%f1, %hf1, H1⟩, ⟨%f2, %hf2, H2⟩, ⟨%f3, %hf3, H3⟩, ⟨%d4, %f4, -, H4⟩, Hk⟩
  obtain rfl := h1.eq_unread hf1; obtain rfl := h2.eq_unread hf2; obtain rfl := h3.eq_unread hf3
  simp only [cc0__linear_attn_kernel_eq_skeleton]; unfold cc0__linear_attn_kernel_skel
  simp only [Prog.lift, Prog.bind_op, Prog.bind_ret, Prog.pure_eq_ret]
  -- head 0: its K and V rows, then its eight chunks by the loop rule at head 0's invariant
  iapply (wp_load Variants.none (c : Thread nD τ) none E (m := M2) (View.setOn_subset_set _ _)) $$ H2; iintro H2
  iapply (wp_load Variants.none (c : Thread nD τ) none E (m := M3) (View.setOn_subset_set _ _)) $$ H3; iintro H3
  iapply (Scf.wp_for_bind Idealize.ShloMosaic.frame (wpE (defs₀ (F := F)) Variants.none (c : Thread nD τ) none) E
    k0_t1_loop.lb k0_t1_loop.ub k0_t1_loop.st k0_t1_ok () _
    (inv1 (F := F) c M1 M4 _ _ (h1.unread x1) f4)
    (step1 (F := F) Variants.none c none E i M1 h1 M2 h2 M3 h3 M4 h4 _ _ (h1.unread x1) f4)) $$ [H1 H4]
  · isplitl [H1]; · iexact H1
    iexists _; isplitl [H4]; · iexact H4
    ipureintro; rfl
  iintro %u1 Hinv
  icases Hinv with ⟨H1, ⟨%g4, H4, %hg4⟩⟩
  subst hg4
  -- head 1 likewise, over what head 0's loop left
  iapply (wp_load Variants.none (c : Thread nD τ) none E (m := M2) (View.setOn_subset_set _ _)) $$ H2; iintro H2
  iapply (wp_load Variants.none (c : Thread nD τ) none E (m := M3) (View.setOn_subset_set _ _)) $$ H3; iintro H3
  iapply (Scf.wp_for_bind Idealize.ShloMosaic.frame (wpE (defs₀ (F := F)) Variants.none (c : Thread nD τ) none) E
    k0_t2_loop.lb k0_t2_loop.ub k0_t2_loop.st k0_t2_ok () _
    (inv2 (F := F) c M1 M4 _ _ (h1.unread x1) _)
    (step2 (F := F) Variants.none c none E i M1 h1 M2 h2 M3 h3 M4 h4 _ _ (h1.unread x1) _)) $$ [H1 H4]
  · isplitl [H1]; · iexact H1
    iexists _; isplitl [H4]; · iexact H4
    ipureintro; rfl
  iintro %u2 Hinv
  icases Hinv with ⟨H1, ⟨%g4, H4, %hg4⟩⟩
  subst hg4
  rw [wp_ret]; imodintro
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  iexists _; isplitr
  swap; · iexact H4
  ipureintro
  rw [load_head0 M2 h2 x2, load_head0 M3 h3 x3, load_head1 M2 h2 x2, load_head1 M3 h3 x3]
  exact read_after M1 M4 h1 x1 x2 x3 f4

/-! ## The pipeline's proof data -/

/-- The arrays as the region finds them; after the body at point t each input's buffer at its block and the output's
    at outBlock of the three input blocks; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    empty debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (kernelRun c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, nothing faulting, and
    ends with every array of the pipeline at what the points' write-backs compose to and every other buffer as the
    reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.Ideal.HeadLoops.lean ====
/-
  The two chunk loops of the linear-attention body, each gone through by an invariant.

  A grid point's block holds two heads. For head h the body first forms kv = Kᵀ·V (a [128,128] matrix) from the
  head's K and V rows, then walks the head's 4096 query rows in eight chunks of 512: chunk k loads rows
  [512k, 512k+512) of Q, multiplies them by kv, and stores the [512,128] product over the same rows of the output.
  Head h of a [2,4096,128] block is reached through a view: the slice of row h with its unit axis dropped, a
  [4096,128] view of the same buffer. What the loop leaves in the output buffer is therefore a list of writes
  THROUGH THAT VIEW, one [512,128] piece per trip, over whatever the buffer held at loop entry; the invariant
  before trip k is "the pieces of the trips before k, newest first".
-/
import proofs.«160901_j80161269613187_2_alg».proof.Proof.Gen.KernelIdeal.Loops
import proofs.«160901_j80161269613187_2_alg».proof.Proof.Gen.KernelIdeal.Frame

set_option maxRecDepth 8192
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ## The two heads of a block as [4096,128] views -/

/-- Head 0 of a two-head block: row 0 sliced out, the unit axis dropped. -/
abbrev head0 (a : Memref sig .tc .vmem S2x4096x128 .f32) : Memref sig .tc .vmem S4096x128 .f32 :=
  (a.slice (Rect.unit (s := S2x4096x128) ![0, 0, 0] S1x4096x128.size inb_S2x4096x128_S1x4096x128_0_0_0) (fun _ => rfl)).squeeze S4096x128 squeezes_S1x4096x128_S4096x128
/-- Head 1 of a two-head block. -/
abbrev head1 (a : Memref sig .tc .vmem S2x4096x128 .f32) : Memref sig .tc .vmem S4096x128 .f32 :=
  (a.slice (Rect.unit (s := S2x4096x128) ![1, 0, 0] S1x4096x128.size inb_S2x4096x128_S1x4096x128_1_0_0) (fun _ => rfl)).squeeze S4096x128 squeezes_S1x4096x128_S4096x128

/-- Any rectangle of head 0 lies among the block's own elements: a slice of a re-laid slice of the block. -/
theorem head0_sub (a : Memref sig .tc .vmem S2x4096x128 .f32) (r : Rect S4096x128) :
    ((head0 a).access r).set ⊆ a.view.set :=
  (View.set_slice_subset _ r).trans (View.set_reshape_subset _ _ (View.set_slice_subset _ _))
/-- The same for head 1. -/
theorem head1_sub (a : Memref sig .tc .vmem S2x4096x128 .f32) (r : Rect S4096x128) :
    ((head1 a).access r).set ⊆ a.view.set :=
  (View.set_slice_subset _ r).trans (View.set_reshape_subset _ _ (View.set_slice_subset _ _))

/-! ## One trip -/

/-- What a trip touches: the query block, read only, and the output block, written. -/
abbrev Trip (c : Dev nD) (arg1 arg4 : Memref sig .tc .vmem S2x4096x128 .f32)
    (X1 : BufTy.Contents (Elt F) arg1.view.ty) (f4 : BufTy.Contents (Elt F) arg4.view.ty) : sProp 𝕄G :=
  iprop((arg1.view.loc (c : Thread nD τ) ↦[arg1.view.set]{fullShare} X1) ∗ (arg4.view.loc (c : Thread nD τ) ↦[arg4.view.set]{fullShare} f4))

/-- Rows [512k, 512k+512) of head 0 of the query block. -/
def qChunk1 (arg1 : Memref sig .tc .vmem S2x4096x128 .f32) (X1 : BufTy.Contents (Elt F) arg1.view.ty) (k : Fin k0_t1_loop.trips) : Vec F S512x128 .f32 :=
  (head0 arg1).view.readAt (Elt F) (Rect.unit (s := S4096x128) (k0_off1 k) S512x128.size (k0_off1_inb k)).toLoadRect X1
/-- Rows [512k, 512k+512) of head 1 of the query block. -/
def qChunk2 (arg1 : Memref sig .tc .vmem S2x4096x128 .f32) (X1 : BufTy.Contents (Elt F) arg1.view.ty) (k : Fin k0_t2_loop.trips) : Vec F S512x128 .f32 :=
  (head1 arg1).view.readAt (Elt F) (Rect.unit (s := S4096x128) (k0_off2 k) S512x128.size (k0_off2_inb k)).toLoadRect X1

/-- Trip k of head 0 writes one piece: over rows [512k, 512k+512), the chunk of Q times Kᵀ·V. -/
def piece1 (arg1 : Memref sig .tc .vmem S2x4096x128 .f32) (X1 : BufTy.Contents (Elt F) arg1.view.ty) (v0 v3 : Vec F S1x4096x128 .f32)
    (k : Fin k0_t1_loop.trips) : View.Piece (Elt F) S4096x128 .f32 :=
  ⟨Rect.unit (s := S4096x128) (k0_off1 k) S512x128.size (k0_off1_inb k), k0_pay1 v0 v3 (qChunk1 arg1 X1 k)⟩
/-- Trip k of head 1 likewise. -/
def piece2 (arg1 : Memref sig .tc .vmem S2x4096x128 .f32) (X1 : BufTy.Contents (Elt F) arg1.view.ty) (v9 v12 : Vec F S1x4096x128 .f32)
    (k : Fin k0_t2_loop.trips) : View.Piece (Elt F) S4096x128 .f32 :=
  ⟨Rect.unit (s := S4096x128) (k0_off2 k) S512x128.size (k0_off2_inb k), k0_pay2 v9 v12 (qChunk2 arg1 X1 k)⟩

/-- ONE TRIP of head 0's loop at a symbolic k: the chunk of Q is loaded through head 0 of the query block, the rows
    about to be overwritten are loaded and dropped, and the product is stored through head 0 of the output block —
    one more write through that view, over whatever the buffer held. -/
theorem trip1 (𝒱 : Variants) (c : Dev nD) (bd : Option 𝒱.V) (i : grid0.Coords)
    (arg1 : Memref sig .tc .vmem S2x4096x128 .f32) (harg1 : arg1.IsWhole) (arg2 : Memref sig .tc .vmem S2x4096x128 .f32) (harg2 : arg2.IsWhole)
    (arg3 : Memref sig .tc .vmem S2x4096x128 .f32) (harg3 : arg3.IsWhole) (arg4 : Memref sig .tc .vmem S2x4096x128 .f32) (harg4 : arg4.IsWhole)
    (v0 v3 : Vec F S1x4096x128 .f32) (X1 : BufTy.Contents (Elt F) arg1.view.ty) (k : Fin k0_t1_loop.trips)
    (E : Set ℕ) (f4 : BufTy.Contents (Elt F) arg4.view.ty) :
    Trip (F := F) c arg1 arg4 X1 f4
      ⊢ wp frame (wpE (defs₀ (F := F)) 𝒱 (c : Thread nD τ) bd) E (k0_t1_body (F := F) i arg1 harg1 arg2 harg2 arg3 harg3 arg4 harg4 v0 v3 k PUnit.unit)
          (fun _ => Trip (F := F) c arg1 arg4 X1 ((head0 arg4).view.writes (Elt F) f4 [piece1 arg1 X1 v0 v3 k])) := by
  unfold k0_t1_body
  iintro ⟨HR1, HW4⟩
  sl_exec
  iapply (wp_store_writes₀ 𝒱 (c : Thread nD τ) bd E (m := head0 arg4) (S := arg4.view.set) (f := f4) (head0_sub arg4 _)) $$ HW4
  iintro HW4
  sl_step
  isplitl [HR1]; · iexact HR1
  iexact HW4

/-- ONE TRIP of head 1's loop. -/
theorem trip2 (𝒱 : Variants) (c : Dev nD) (bd : Option 𝒱.V) (i : grid0.Coords)
    (arg1 : Memref sig .tc .vmem S2x4096x128 .f32) (harg1 : arg1.IsWhole) (arg2 : Memref sig .tc .vmem S2x4096x128 .f32) (harg2 : arg2.IsWhole)
    (arg3 : Memref sig .tc .vmem S2x4096x128 .f32) (harg3 : arg3.IsWhole) (arg4 : Memref sig .tc .vmem S2x4096x128 .f32) (harg4 : arg4.IsWhole)
    (v9 v12 : Vec F S1x4096x128 .f32) (X1 : BufTy.Contents (Elt F) arg1.view.ty) (k : Fin k0_t2_loop.trips)
    (E : Set ℕ) (f4 : BufTy.Contents (Elt F) arg4.view.ty) :
    Trip (F := F) c arg1 arg4 X1 f4
      ⊢ wp frame (wpE (defs₀ (F := F)) 𝒱 (c : Thread nD τ) bd) E (k0_t2_body (F := F) i arg1 harg1 arg2 harg2 arg3 harg3 arg4 harg4 v9 v12 k PUnit.unit)
          (fun _ => Trip (F := F) c arg1 arg4 X1 ((head1 arg4).view.writes (Elt F) f4 [piece2 arg1 X1 v9 v12 k])) := by
  unfold k0_t2_body
  iintro ⟨HR1, HW4⟩
  sl_exec
  iapply (wp_store_writes₀ 𝒱 (c : Thread nD τ) bd E (m := head1 arg4) (S := arg4.view.set) (f := f4) (head1_sub arg4 _)) $$ HW4
  iintro HW4
  sl_step
  isplitl [HR1]; · iexact HR1
  iexact HW4

/-! ## The pieces of the trips before k, newest first -/

/-- Head 0: the pieces of trips 0 … k-1. -/
def pb1 (arg1 : Memref sig .tc .vmem S2x4096x128 .f32) (X1 : BufTy.Contents (Elt F) arg1.view.ty) (v0 v3 : Vec F S1x4096x128 .f32) :
    ℕ → List (View.Piece (Elt F) S4096x128 .f32)
  | 0 => []
  | k + 1 => if h : k < k0_t1_loop.trips then piece1 arg1 X1 v0 v3 ⟨k, h⟩ :: pb1 arg1 X1 v0 v3 k else pb1 arg1 X1 v0 v3 k
/-- Head 1: the pieces of trips 0 … k-1. -/
def pb2 (arg1 : Memref sig .tc .vmem S2x4096x128 .f32) (X1 : BufTy.Contents (Elt F) arg1.view.ty) (v9 v12 : Vec F S1x4096x128 .f32) :
    ℕ → List (View.Piece (Elt F) S4096x128 .f32)
  | 0 => []
  | k + 1 => if h : k < k0_t2_loop.trips then piece2 arg1 X1 v9 v12 ⟨k, h⟩ :: pb2 arg1 X1 v9 v12 k else pb2 arg1 X1 v9 v12 k

theorem pb1_succ (arg1 : Memref sig .tc .vmem S2x4096x128 .f32) (X1 : BufTy.Contents (Elt F) arg1.view.ty) (v0 v3 : Vec F S1x4096x128 .f32)
    (k : Fin k0_t1_loop.trips) : pb1 arg1 X1 v0 v3 (k.val + 1) = [piece1 arg1 X1 v0 v3 k] ++ pb1 arg1 X1 v0 v3 k.val := by
  rw [pb1, dif_pos k.isLt]; rfl
theorem pb2_succ (arg1 : Memref sig .tc .vmem S2x4096x128 .f32) (X1 : BufTy.Contents (Elt F) arg1.view.ty) (v9 v12 : Vec F S1x4096x128 .f32)
    (k : Fin k0_t2_loop.trips) : pb2 arg1 X1 v9 v12 (k.val + 1) = [piece2 arg1 X1 v9 v12 k] ++ pb2 arg1 X1 v9 v12 k.val := by
  rw [pb2, dif_pos k.isLt]; rfl

/-! ## The invariants -/

/-- Before trip k of head 0's loop: the query block as it was; the output block at the pieces of the trips before k,
    written through head 0 over the contents G4 it had at loop entry. -/
abbrev inv1 (c : Dev nD) (arg1 arg4 : Memref sig .tc .vmem S2x4096x128 .f32) (v0 v3 : Vec F S1x4096x128 .f32)
    (X1 : BufTy.Contents (Elt F) arg1.view.ty) (G4 : BufTy.Contents (Elt F) arg4.view.ty) (k : ℕ) (_u : PUnit) : sProp 𝕄G :=
  iprop((arg1.view.loc (c : Thread nD τ) ↦[arg1.view.set]{fullShare} X1)
    ∗ (∃ f, (arg4.view.loc (c : Thread nD τ) ↦[arg4.view.set]{fullShare} f) ∗ ⌜f = (head0 arg4).view.writes (Elt F) G4 (pb1 arg1 X1 v0 v3 k)⌝))
/-- Before trip k of head 1's loop, likewise through head 1. -/
abbrev inv2 (c : Dev nD) (arg1 arg4 : Memref sig .tc .vmem S2x4096x128 .f32) (v9 v12 : Vec F S1x4096x128 .f32)
    (X1 : BufTy.Contents (Elt F) arg1.view.ty) (G4 : BufTy.Contents (Elt F) arg4.view.ty) (k : ℕ) (_u : PUnit) : sProp 𝕄G :=
  iprop((arg1.view.loc (c : Thread nD τ) ↦[arg1.view.set]{fullShare} X1)
    ∗ (∃ f, (arg4.view.loc (c : Thread nD τ) ↦[arg4.view.set]{fullShare} f) ∗ ⌜f = (head1 arg4).view.writes (Elt F) G4 (pb2 arg1 X1 v9 v12 k)⌝))

/-- Head 0's loop preserves its invariant: one trip conses its piece onto the list. -/
theorem step1 (𝒱 : Variants) (c : Dev nD) (bd : Option 𝒱.V) (E : Set ℕ) (i : grid0.Coords)
    (arg1 : Memref sig .tc .vmem S2x4096x128 .f32) (harg1 : arg1.IsWhole) (arg2 : Memref sig .tc .vmem S2x4096x128 .f32) (harg2 : arg2.IsWhole)
    (arg3 : Memref sig .tc .vmem S2x4096x128 .f32) (harg3 : arg3.IsWhole) (arg4 : Memref sig .tc .vmem S2x4096x128 .f32) (harg4 : arg4.IsWhole)
    (v0 v3 : Vec F S1x4096x128 .f32) (X1 : BufTy.Contents (Elt F) arg1.view.ty) (G4 : BufTy.Contents (Elt F) arg4.view.ty)
    (k : Fin k0_t1_loop.trips) (acc : Unit) :
    inv1 (F := F) c arg1 arg4 v0 v3 X1 G4 k.val acc
      ⊢ wp frame (wpE (defs₀ (F := F)) 𝒱 (c : Thread nD τ) bd) E (k0_t1_body (F := F) i arg1 harg1 arg2 harg2 arg3 harg3 arg4 harg4 v0 v3 k acc)
          (inv1 (F := F) c arg1 arg4 v0 v3 X1 G4 (k.val + 1)) := by
  iintro ⟨HR1, ⟨%f4, HW4, %h4⟩⟩
  iapply (wp_wand_r Idealize.ShloMosaic.frame (wpE (defs₀ (F := F)) 𝒱 (c : Thread nD τ) bd) E)
  isplitl [HR1 HW4]
  · iapply (trip1 (F := F) 𝒱 c bd i arg1 harg1 arg2 harg2 arg3 harg3 arg4 harg4 v0 v3 X1 k E f4)
    isplitl [HR1]; · iexact HR1
    iexact HW4
  · iintro %_ ⟨HR1, HW4⟩
    isplitl [HR1]; · iexact HR1
    rw [pb1_succ]
    iexists _; isplitl [HW4]; · iexact HW4
    ipureintro; rw [h4, ← View.writes_append]

/-- Head 1's loop preserves its invariant: one trip conses its piece onto the list. -/
theorem step2 (𝒱 : Variants) (c : Dev nD) (bd : Option 𝒱.V) (E : Set ℕ) (i : grid0.Coords)
    (arg1 : Memref sig .tc .vmem S2x4096x128 .f32) (harg1 : arg1.IsWhole) (arg2 : Memref sig .tc .vmem S2x4096x128 .f32) (harg2 : arg2.IsWhole)
    (arg3 : Memref sig .tc .vmem S2x4096x128 .f32) (harg3 : arg3.IsWhole) (arg4 : Memref sig .tc .vmem S2x4096x128 .f32) (harg4 : arg4.IsWhole)
    (v9 v12 : Vec F S1x4096x128 .f32) (X1 : BufTy.Contents (Elt F) arg1.view.ty) (G4 : BufTy.Contents (Elt F) arg4.view.ty)
    (k : Fin k0_t2_loop.trips) (acc : Unit) :
    inv2 (F := F) c arg1 arg4 v9 v12 X1 G4 k.val acc
      ⊢ wp frame (wpE (defs₀ (F := F)) 𝒱 (c : Thread nD τ) bd) E (k0_t2_body (F := F) i arg1 harg1 arg2 harg2 arg3 harg3 arg4 harg4 v9 v12 k acc)
          (inv2 (F := F) c arg1 arg4 v9 v12 X1 G4 (k.val + 1)) := by
  iintro ⟨HR1, ⟨%f4, HW4, %h4⟩⟩
  iapply (wp_wand_r Idealize.ShloMosaic.frame (wpE (defs₀ (F := F)) 𝒱 (c : Thread nD τ) bd) E)
  isplitl [HR1 HW4]
  · iapply (trip2 (F := F) 𝒱 c bd i arg1 harg1 arg2 harg2 arg3 harg3 arg4 harg4 v9 v12 X1 k E f4)
    isplitl [HR1]; · iexact HR1
    iexact HW4
  · iintro %_ ⟨HR1, HW4⟩
    isplitl [HR1]; · iexact HR1
    rw [pb2_succ]
    iexists _; isplitl [HW4]; · iexact HW4
    ipureintro; rw [h4, ← View.writes_append]

end Cert.KernelIdeal.Body

end
-- ==== Proof.Ideal.BlockValue.lean ====
/-
  What the body leaves in the output block, as a function of the three input blocks.

  For head h, row r, column e the output is  Σ_d Q[h,r,d] · (Σ_s K[h,s,d] · V[h,s,e]) — written here through the
  kernel's own payload: the payload of head h applied to head h's rows of K and V and to the chunk of Q that holds
  row r, read at that row's place in the chunk. The loops leave each head as eight [512,128] pieces written through
  the head's view; each piece agrees with the head's function on its rows and the eight cover the head, so the
  head reads as that function whatever the buffer held before. Head 1's writes do not touch
  head 0's elements, so the two heads are read one after the other.
-/
import proofs.«160901_j80161269613187_2_alg».proof.Proof.Ideal.HeadLoops
import Idealize.ShloMosaic.Lib.WholeRead
import Idealize.ShloMosaic.Lib.ValueLayout
import Idealize.ShloMosaic.Lib.ValueIdx
import Idealize.ShloMosaic.Lib.Writes

set_option maxRecDepth 8192

noncomputable section

namespace Cert.KernelIdeal.Body

open Cert.KernelIdeal Cert.KernelIdeal.Gen
open Idealize.ShloMosaic Idealize.ShloMosaic.ValueIdx

variable {F : FTy → Type} [FloatOps F]

/-! ## Rows of a block -/

/-- Head h's 4096 rows of a [2,4096,128] block, as the [1,4096,128] vector a load of that head reads. -/
def headRows (x : Vec F S2x4096x128 .f32) (h : Fin 2) : Vec F S1x4096x128 .f32 :=
  fun j => x (ix3 h (⟨(j 1).val, (j 1).isLt⟩ : Fin 4096) (⟨(j 2).val, (j 2).isLt⟩ : Fin 128))

/-- Rows [512k, 512k+512) of head h, as a [512,128] vector (k < 8 in every use; the row is taken modulo 4096 so that the
    definition needs no bound). -/
def chunkRows (x : Vec F S2x4096x128 .f32) (h : Fin 2) (k : ℕ) : Vec F S512x128 .f32 :=
  fun j => x (ix3 h (⟨(512 * k + (j 0).val) % 4096, Nat.mod_lt _ (by decide)⟩ : Fin 4096) (⟨(j 1).val, (j 1).isLt⟩ : Fin 128))

/-! ## Head 0 -/

/-- What head 0 of the output block holds, as a [4096,128] function of the input blocks: row r, column e is the
    product's entry for Q's chunk r / 512 at its row r % 512. -/
def headOut0 (x1 x2 x3 : Vec F S2x4096x128 .f32) : Vec F S4096x128 .f32 := fun z =>
  k0_pay1 (headRows x2 0) (headRows x3 0) (chunkRows x1 0 ((z 0).val / 512))
    (ix2 (⟨(z 0).val % 512, Nat.mod_lt _ (by decide)⟩ : Fin 512) (⟨(z 1).val, (z 1).isLt⟩ : Fin 128))

/-- A load of head 0's rows through a whole block held at the contents that read x reads head 0's rows of x. -/
theorem load_head0 (M : Memref sig .tc .vmem S2x4096x128 .f32) (hM : M.IsWhole) (x : Vec F S2x4096x128 .f32) :
    M.view.readAt (Elt F) (Rect.unit (s := S2x4096x128) ![0, 0, 0] S1x4096x128.size inb_S2x4096x128_S1x4096x128_0_0_0).toLoadRect (hM.unread x)
      = headRows x 0 := by
  funext j
  rw [hM.readAt_unread]
  unfold headRows
  congr 1
  funext a
  apply Fin.ext
  have h0 : (j 0).val < 1 := (j 0).isLt
  match a with
  | ⟨0, _⟩ => show 0 + 1 * (j 0).val = 0; omega
  | ⟨1, _⟩ => show 0 + 1 * (j 1).val = (j 1).val; omega
  | ⟨2, _⟩ => show 0 + 1 * (j 2).val = (j 2).val; omega

/-- Reading through head 0 of a block at (r, e) is reading the block at (0, r, e): the head's view places its
    index by adding the unit axis back and offsetting it by 0. -/
theorem head0_read (M : Memref sig .tc .vmem S2x4096x128 .f32) (g : BufTy.Contents (Elt F) M.view.ty) (z : S4096x128.Idx) :
    (head0 M).view.read (Elt F) g z
      = M.view.read (Elt F) g (ix3 (0 : Fin 2) (⟨(z 0).val, (z 0).isLt⟩ : Fin 4096) (⟨(z 1).val, (z 1).isLt⟩ : Fin 128)) := by
  show M.view.read (Elt F) g ((Rect.unit (s := S2x4096x128) ![0, 0, 0] S1x4096x128.size inb_S2x4096x128_S1x4096x128_0_0_0).emb
    (Shape.reshapeEquiv squeezes_S1x4096x128_S4096x128.numel_eq z)) = _
  congr 1
  have hz : z = ix2 (⟨(z 0).val, (z 0).isLt⟩ : Fin 4096) (⟨(z 1).val, (z 1).isLt⟩ : Fin 128) :=
    funext fun a => Fin.ext (by match a with | ⟨0, _⟩ => rfl | ⟨1, _⟩ => rfl)
  conv_lhs => rw [hz, reshapeEquiv_ix2_1ab]
  funext a
  apply Fin.ext
  match a with
  | ⟨0, _⟩ => show 0 + 1 * 0 = 0; omega
  | ⟨1, _⟩ => show 0 + 1 * (z 0).val = (z 0).val; omega
  | ⟨2, _⟩ => show 0 + 1 * (z 1).val = (z 1).val; omega

theorem k0_off1_0 (k : Fin k0_t1_loop.trips) : k0_off1 k 0 = 512 * k.val := by rw [k0_off1_eq]; rfl
theorem k0_off1_1 (k : Fin k0_t1_loop.trips) : k0_off1 k 1 = 0 := by rw [k0_off1_eq]; rfl
theorem trips1 : k0_t1_loop.trips = 8 := by decide +kernel

/-- The chunk trip k loads through head 0 of the query block is rows [512k, 512k+512) of head 0 of that block. -/
theorem qChunk1_eq (M : Memref sig .tc .vmem S2x4096x128 .f32) (hM : M.IsWhole) (x : Vec F S2x4096x128 .f32) (k : Fin k0_t1_loop.trips) :
    qChunk1 M (hM.unread x) k = chunkRows x 0 k.val := by
  have hk : k.val < 8 := lt_of_lt_of_eq k.isLt trips1
  funext j
  have hj0 : (j 0).val < 512 := (j 0).isLt
  have hj1 : (j 1).val < 128 := (j 1).isLt
  unfold qChunk1
  show View.readAt (Elt F) ((M.view.slice (Rect.unit (s := S2x4096x128) ![0, 0, 0] S1x4096x128.size inb_S2x4096x128_S1x4096x128_0_0_0)).reshape S4096x128
      squeezes_S1x4096x128_S4096x128.numel_eq) (Rect.unit (s := S4096x128) (k0_off1 k) S512x128.size (k0_off1_inb k)).toLoadRect (hM.unread x) j = _
  rw [hM.readAt_slice_reshape_unread]
  unfold chunkRows
  congr 1
  have hB : (Rect.unit (s := S4096x128) (k0_off1 k) S512x128.size (k0_off1_inb k)).toLoadRect.idx j
      = ix2 (⟨512 * k.val + (j 0).val, by omega⟩ : Fin 4096) (⟨(j 1).val, hj1⟩ : Fin 128) :=
    funext fun a => Fin.ext (by
      match a with
      | ⟨0, _⟩ => show k0_off1 k 0 + 1 * (j 0).val = 512 * k.val + (j 0).val; rw [k0_off1_0]; omega
      | ⟨1, _⟩ => show k0_off1 k 1 + 1 * (j 1).val = (j 1).val; rw [k0_off1_1]; omega)
  rw [hB, reshapeEquiv_ix2_1ab]
  funext a
  apply Fin.ext
  match a with
  | ⟨0, _⟩ => show 0 + 1 * 0 = 0; omega
  | ⟨1, _⟩ => show 0 + 1 * (512 * k.val + (j 0).val) = (512 * k.val + (j 0).val) % 4096; omega
  | ⟨2, _⟩ => show 0 + 1 * (j 1).val = (j 1).val; omega

/-- Trip k's piece agrees with head 0's function on its rows: row 512k + r is in chunk k at row r. -/
theorem piece1_agrees (M : Memref sig .tc .vmem S2x4096x128 .f32) (hM : M.IsWhole) (x1 x2 x3 : Vec F S2x4096x128 .f32)
    (k : Fin k0_t1_loop.trips) (x : (piece1 M (hM.unread x1) (headRows x2 0) (headRows x3 0) k).1.shape.Idx) :
    (piece1 M (hM.unread x1) (headRows x2 0) (headRows x3 0) k).2 x
      = headOut0 x1 x2 x3 ((piece1 M (hM.unread x1) (headRows x2 0) (headRows x3 0) k).1.emb x) := by
  have hk : k.val < 8 := lt_of_lt_of_eq k.isLt trips1
  have hx0 : (x 0).val < 512 := (x 0).isLt
  have hx1 : (x 1).val < 128 := (x 1).isLt
  have he0 : (((piece1 M (hM.unread x1) (headRows x2 0) (headRows x3 0) k).1.emb x) 0).val = 512 * k.val + (x 0).val := by
    show k0_off1 k 0 + 1 * (x 0).val = _; rw [k0_off1_0]; omega
  have he1 : (((piece1 M (hM.unread x1) (headRows x2 0) (headRows x3 0) k).1.emb x) 1).val = (x 1).val := by
    show k0_off1 k 1 + 1 * (x 1).val = _; rw [k0_off1_1]; omega
  unfold headOut0
  rw [show (((piece1 M (hM.unread x1) (headRows x2 0) (headRows x3 0) k).1.emb x) 0).val / 512 = k.val from by omega]
  have hx : ix2 (⟨(((piece1 M (hM.unread x1) (headRows x2 0) (headRows x3 0) k).1.emb x) 0).val % 512, Nat.mod_lt _ (by decide)⟩ : Fin 512)
      (⟨(((piece1 M (hM.unread x1) (headRows x2 0) (headRows x3 0) k).1.emb x) 1).val,
        (((piece1 M (hM.unread x1) (headRows x2 0) (headRows x3 0) k).1.emb x) 1).isLt⟩ : Fin 128) = x :=
    funext fun a => Fin.ext (by
      match a with
      | ⟨0, _⟩ => show (((piece1 M (hM.unread x1) (headRows x2 0) (headRows x3 0) k).1.emb x) 0).val % 512 = (x 0).val; omega
      | ⟨1, _⟩ => show (((piece1 M (hM.unread x1) (headRows x2 0) (headRows x3 0) k).1.emb x) 1).val = (x 1).val; omega)
  rw [hx]
  show k0_pay1 (headRows x2 0) (headRows x3 0) (qChunk1 M (hM.unread x1) k) x = _
  rw [qChunk1_eq]

/-- Every piece of the list is some trip's piece. -/
theorem mem_pb1 (M : Memref sig .tc .vmem S2x4096x128 .f32) (X1 : BufTy.Contents (Elt F) M.view.ty) (v0 v3 : Vec F S1x4096x128 .f32) :
    ∀ (n : ℕ) (p : View.Piece (Elt F) S4096x128 .f32), p ∈ pb1 M X1 v0 v3 n → ∃ k : Fin k0_t1_loop.trips, p = piece1 M X1 v0 v3 k
  | 0, p, hp => absurd hp List.not_mem_nil
  | n + 1, p, hp => by
    rw [pb1] at hp
    split at hp
    · rename_i hn
      rcases List.mem_cons.mp hp with rfl | hp'
      · exact ⟨⟨n, hn⟩, rfl⟩
      · exact mem_pb1 M X1 v0 v3 n p hp'
    · exact mem_pb1 M X1 v0 v3 n p hp

/-- Trip k's piece is in the list of the trips before any later n. -/
theorem piece1_mem (M : Memref sig .tc .vmem S2x4096x128 .f32) (X1 : BufTy.Contents (Elt F) M.view.ty) (v0 v3 : Vec F S1x4096x128 .f32)
    (k : Fin k0_t1_loop.trips) : ∀ n : ℕ, k.val < n → piece1 M X1 v0 v3 k ∈ pb1 M X1 v0 v3 n
  | 0, h => absurd h (Nat.not_lt_zero _)
  | n + 1, h => by
    rw [pb1]
    by_cases hn : n < k0_t1_loop.trips
    · rw [dif_pos hn]
      by_cases e : k.val = n
      · have : k = ⟨n, hn⟩ := Fin.ext e
        rw [this]; exact List.mem_cons_self
      · exact List.mem_cons_of_mem _ (piece1_mem M X1 v0 v3 k n (by omega))
    · rw [dif_neg hn]
      exact piece1_mem M X1 v0 v3 k n (by have := k.isLt; omega)

/-- The eight pieces cover the head: row r lies in chunk r / 512. -/
theorem cover1 (M : Memref sig .tc .vmem S2x4096x128 .f32) (X1 : BufTy.Contents (Elt F) M.view.ty) (v0 v3 : Vec F S1x4096x128 .f32)
    (z : S4096x128.Idx) : ∃ p ∈ pb1 M X1 v0 v3 k0_t1_loop.trips, z ∈ p.1.set := by
  have hz0 : (z 0).val < 4096 := (z 0).isLt
  have hz1 : (z 1).val < 128 := (z 1).isLt
  have hk : (z 0).val / 512 < k0_t1_loop.trips := by rw [trips1]; omega
  refine ⟨piece1 M X1 v0 v3 ⟨(z 0).val / 512, hk⟩, piece1_mem M X1 v0 v3 _ _ hk, ?_⟩
  show z ∈ (Rect.unit (s := S4096x128) (k0_off1 ⟨(z 0).val / 512, hk⟩) S512x128.size (k0_off1_inb _)).set
  rw [Rect.mem_set_unit]
  intro a
  match a with
  | ⟨0, _⟩ => show k0_off1 ⟨(z 0).val / 512, hk⟩ 0 ≤ (z 0).val ∧ (z 0).val < k0_off1 ⟨(z 0).val / 512, hk⟩ 0 + 512
              rw [k0_off1_0]; show 512 * ((z 0).val / 512) ≤ (z 0).val ∧ (z 0).val < 512 * ((z 0).val / 512) + 512; omega
  | ⟨1, _⟩ => show k0_off1 ⟨(z 0).val / 512, hk⟩ 1 ≤ (z 1).val ∧ (z 1).val < k0_off1 ⟨(z 0).val / 512, hk⟩ 1 + 128
              rw [k0_off1_1]; omega

/-- After the eight trips head 0 of the output buffer reads as head 0's function, whatever the buffer held. -/
theorem head0_after (M1 M4 : Memref sig .tc .vmem S2x4096x128 .f32) (h1 : M1.IsWhole) (x1 x2 x3 : Vec F S2x4096x128 .f32)
    (g : BufTy.Contents (Elt F) M4.view.ty) (z : S4096x128.Idx) :
    (head0 M4).view.read (Elt F) ((head0 M4).view.writes (Elt F) g
      (pb1 M1 (h1.unread x1) (headRows x2 0) (headRows x3 0) k0_t1_loop.trips)) z = headOut0 x1 x2 x3 z :=
  View.read_writes_apply_of_pieces _ _ (headOut0 x1 x2 x3) _
    (fun p hp x => by
      obtain ⟨k, rfl⟩ := mem_pb1 M1 _ _ _ _ p hp
      exact piece1_agrees M1 h1 x1 x2 x3 k x)
    z (cover1 M1 _ _ _ z)

/-! ## Head 1 -/

/-- What head 1 of the output block holds, as a [4096,128] function of the input blocks: row r, column e is the
    product's entry for Q's chunk r / 512 at its row r % 512. -/
def headOut1 (x1 x2 x3 : Vec F S2x4096x128 .f32) : Vec F S4096x128 .f32 := fun z =>
  k0_pay2 (headRows x2 1) (headRows x3 1) (chunkRows x1 1 ((z 0).val / 512))
    (ix2 (⟨(z 0).val % 512, Nat.mod_lt _ (by decide)⟩ : Fin 512) (⟨(z 1).val, (z 1).isLt⟩ : Fin 128))

/-- A load of head 1's rows through a whole block held at the contents that read x reads head 1's rows of x. -/
theorem load_head1 (M : Memref sig .tc .vmem S2x4096x128 .f32) (hM : M.IsWhole) (x : Vec F S2x4096x128 .f32) :
    M.view.readAt (Elt F) (Rect.unit (s := S2x4096x128) ![1, 0, 0] S1x4096x128.size inb_S2x4096x128_S1x4096x128_1_0_0).toLoadRect (hM.unread x)
      = headRows x 1 := by
  funext j
  rw [hM.readAt_unread]
  unfold headRows
  congr 1
  funext a
  apply Fin.ext
  have h0 : (j 0).val < 1 := (j 0).isLt
  match a with
  | ⟨0, _⟩ => show 1 + 1 * (j 0).val = 1; omega
  | ⟨1, _⟩ => show 0 + 1 * (j 1).val = (j 1).val; omega
  | ⟨2, _⟩ => show 0 + 1 * (j 2).val = (j 2).val; omega

/-- Reading through head 1 of a block at (r, e) is reading the block at (1, r, e): the head's view places its
    index by adding the unit axis back and offsetting it by 1. -/
theorem head1_read (M : Memref sig .tc .vmem S2x4096x128 .f32) (g : BufTy.Contents (Elt F) M.view.ty) (z : S4096x128.Idx) :
    (head1 M).view.read (Elt F) g z
      = M.view.read (Elt F) g (ix3 (1 : Fin 2) (⟨(z 0).val, (z 0).isLt⟩ : Fin 4096) (⟨(z 1).val, (z 1).isLt⟩ : Fin 128)) := by
  show M.view.read (Elt F) g ((Rect.unit (s := S2x4096x128) ![1, 0, 0] S1x4096x128.size inb_S2x4096x128_S1x4096x128_1_0_0).emb
    (Shape.reshapeEquiv squeezes_S1x4096x128_S4096x128.numel_eq z)) = _
  congr 1
  have hz : z = ix2 (⟨(z 0).val, (z 0).isLt⟩ : Fin 4096) (⟨(z 1).val, (z 1).isLt⟩ : Fin 128) :=
    funext fun a => Fin.ext (by match a with | ⟨0, _⟩ => rfl | ⟨1, _⟩ => rfl)
  conv_lhs => rw [hz, reshapeEquiv_ix2_1ab]
  funext a
  apply Fin.ext
  match a with
  | ⟨0, _⟩ => show 1 + 1 * 0 = 1; omega
  | ⟨1, _⟩ => show 0 + 1 * (z 0).val = (z 0).val; omega
  | ⟨2, _⟩ => show 0 + 1 * (z 1).val = (z 1).val; omega

theorem k0_off2_0 (k : Fin k0_t2_loop.trips) : k0_off2 k 0 = 512 * k.val := by rw [k0_off2_eq]; rfl
theorem k0_off2_1 (k : Fin k0_t2_loop.trips) : k0_off2 k 1 = 0 := by rw [k0_off2_eq]; rfl
theorem trips2 : k0_t2_loop.trips = 8 := by decide +kernel

/-- The chunk trip k loads through head 1 of the query block is rows [512k, 512k+512) of head 1 of that block. -/
theorem qChunk2_eq (M : Memref sig .tc .vmem S2x4096x128 .f32) (hM : M.IsWhole) (x : Vec F S2x4096x128 .f32) (k : Fin k0_t2_loop.trips) :
    qChunk2 M (hM.unread x) k = chunkRows x 1 k.val := by
  have hk : k.val < 8 := lt_of_lt_of_eq k.isLt trips2
  funext j
  have hj0 : (j 0).val < 512 := (j 0).isLt
  have hj1 : (j 1).val < 128 := (j 1).isLt
  unfold qChunk2
  show View.readAt (Elt F) ((M.view.slice (Rect.unit (s := S2x4096x128) ![1, 0, 0] S1x4096x128.size inb_S2x4096x128_S1x4096x128_1_0_0)).reshape S4096x128
      squeezes_S1x4096x128_S4096x128.numel_eq) (Rect.unit (s := S4096x128) (k0_off2 k) S512x128.size (k0_off2_inb k)).toLoadRect (hM.unread x) j = _
  rw [hM.readAt_slice_reshape_unread]
  unfold chunkRows
  congr 1
  have hB : (Rect.unit (s := S4096x128) (k0_off2 k) S512x128.size (k0_off2_inb k)).toLoadRect.idx j
      = ix2 (⟨512 * k.val + (j 0).val, by omega⟩ : Fin 4096) (⟨(j 1).val, hj1⟩ : Fin 128) :=
    funext fun a => Fin.ext (by
      match a with
      | ⟨0, _⟩ => show k0_off2 k 0 + 1 * (j 0).val = 512 * k.val + (j 0).val; rw [k0_off2_0]; omega
      | ⟨1, _⟩ => show k0_off2 k 1 + 1 * (j 1).val = (j 1).val; rw [k0_off2_1]; omega)
  rw [hB, reshapeEquiv_ix2_1ab]
  funext a
  apply Fin.ext
  match a with
  | ⟨0, _⟩ => show 1 + 1 * 0 = 1; omega
  | ⟨1, _⟩ => show 0 + 1 * (512 * k.val + (j 0).val) = (512 * k.val + (j 0).val) % 4096; omega
  | ⟨2, _⟩ => show 0 + 1 * (j 1).val = (j 1).val; omega

/-- Trip k's piece agrees with head 1's function on its rows: row 512k + r is in chunk k at row r. -/
theorem piece2_agrees (M : Memref sig .tc .vmem S2x4096x128 .f32) (hM : M.IsWhole) (x1 x2 x3 : Vec F S2x4096x128 .f32)
    (k : Fin k0_t2_loop.trips) (x : (piece2 M (hM.unread x1) (headRows x2 1) (headRows x3 1) k).1.shape.Idx) :
    (piece2 M (hM.unread x1) (headRows x2 1) (headRows x3 1) k).2 x
      = headOut1 x1 x2 x3 ((piece2 M (hM.unread x1) (headRows x2 1) (headRows x3 1) k).1.emb x) := by
  have hk : k.val < 8 := lt_of_lt_of_eq k.isLt trips2
  have hx0 : (x 0).val < 512 := (x 0).isLt
  have hx1 : (x 1).val < 128 := (x 1).isLt
  have he0 : (((piece2 M (hM.unread x1) (headRows x2 1) (headRows x3 1) k).1.emb x) 0).val = 512 * k.val + (x 0).val := by
    show k0_off2 k 0 + 1 * (x 0).val = _; rw [k0_off2_0]; omega
  have he1 : (((piece2 M (hM.unread x1) (headRows x2 1) (headRows x3 1) k).1.emb x) 1).val = (x 1).val := by
    show k0_off2 k 1 + 1 * (x 1).val = _; rw [k0_off2_1]; omega
  unfold headOut1
  rw [show (((piece2 M (hM.unread x1) (headRows x2 1) (headRows x3 1) k).1.emb x) 0).val / 512 = k.val from by omega]
  have hx : ix2 (⟨(((piece2 M (hM.unread x1) (headRows x2 1) (headRows x3 1) k).1.emb x) 0).val % 512, Nat.mod_lt _ (by decide)⟩ : Fin 512)
      (⟨(((piece2 M (hM.unread x1) (headRows x2 1) (headRows x3 1) k).1.emb x) 1).val,
        (((piece2 M (hM.unread x1) (headRows x2 1) (headRows x3 1) k).1.emb x) 1).isLt⟩ : Fin 128) = x :=
    funext fun a => Fin.ext (by
      match a with
      | ⟨0, _⟩ => show (((piece2 M (hM.unread x1) (headRows x2 1) (headRows x3 1) k).1.emb x) 0).val % 512 = (x 0).val; omega
      | ⟨1, _⟩ => show (((piece2 M (hM.unread x1) (headRows x2 1) (headRows x3 1) k).1.emb x) 1).val = (x 1).val; omega)
  rw [hx]
  show k0_pay2 (headRows x2 1) (headRows x3 1) (qChunk2 M (hM.unread x1) k) x = _
  rw [qChunk2_eq]

/-- Every piece of the list is some trip's piece. -/
theorem mem_pb2 (M : Memref sig .tc .vmem S2x4096x128 .f32) (X1 : BufTy.Contents (Elt F) M.view.ty) (v9 v12 : Vec F S1x4096x128 .f32) :
    ∀ (n : ℕ) (p : View.Piece (Elt F) S4096x128 .f32), p ∈ pb2 M X1 v9 v12 n → ∃ k : Fin k0_t2_loop.trips, p = piece2 M X1 v9 v12 k
  | 0, p, hp => absurd hp List.not_mem_nil
  | n + 1, p, hp => by
    rw [pb2] at hp
    split at hp
    · rename_i hn
      rcases List.mem_cons.mp hp with rfl | hp'
      · exact ⟨⟨n, hn⟩, rfl⟩
      · exact mem_pb2 M X1 v9 v12 n p hp'
    · exact mem_pb2 M X1 v9 v12 n p hp

/-- Trip k's piece is in the list of the trips before any later n. -/
theorem piece2_mem (M : Memref sig .tc .vmem S2x4096x128 .f32) (X1 : BufTy.Contents (Elt F) M.view.ty) (v9 v12 : Vec F S1x4096x128 .f32)
    (k : Fin k0_t2_loop.trips) : ∀ n : ℕ, k.val < n → piece2 M X1 v9 v12 k ∈ pb2 M X1 v9 v12 n
  | 0, h => absurd h (Nat.not_lt_zero _)
  | n + 1, h => by
    rw [pb2]
    by_cases hn : n < k0_t2_loop.trips
    · rw [dif_pos hn]
      by_cases e : k.val = n
      · have : k = ⟨n, hn⟩ := Fin.ext e
        rw [this]; exact List.mem_cons_self
      · exact List.mem_cons_of_mem _ (piece2_mem M X1 v9 v12 k n (by omega))
    · rw [dif_neg hn]
      exact piece2_mem M X1 v9 v12 k n (by have := k.isLt; omega)

/-- The eight pieces cover the head: row r lies in chunk r / 512. -/
theorem cover2 (M : Memref sig .tc .vmem S2x4096x128 .f32) (X1 : BufTy.Contents (Elt F) M.view.ty) (v9 v12 : Vec F S1x4096x128 .f32)
    (z : S4096x128.Idx) : ∃ p ∈ pb2 M X1 v9 v12 k0_t2_loop.trips, z ∈ p.1.set := by
  have hz0 : (z 0).val < 4096 := (z 0).isLt
  have hz1 : (z 1).val < 128 := (z 1).isLt
  have hk : (z 0).val / 512 < k0_t2_loop.trips := by rw [trips2]; omega
  refine ⟨piece2 M X1 v9 v12 ⟨(z 0).val / 512, hk⟩, piece2_mem M X1 v9 v12 _ _ hk, ?_⟩
  show z ∈ (Rect.unit (s := S4096x128) (k0_off2 ⟨(z 0).val / 512, hk⟩) S512x128.size (k0_off2_inb _)).set
  rw [Rect.mem_set_unit]
  intro a
  match a with
  | ⟨0, _⟩ => show k0_off2 ⟨(z 0).val / 512, hk⟩ 0 ≤ (z 0).val ∧ (z 0).val < k0_off2 ⟨(z 0).val / 512, hk⟩ 0 + 512
              rw [k0_off2_0]; show 512 * ((z 0).val / 512) ≤ (z 0).val ∧ (z 0).val < 512 * ((z 0).val / 512) + 512; omega
  | ⟨1, _⟩ => show k0_off2 ⟨(z 0).val / 512, hk⟩ 1 ≤ (z 1).val ∧ (z 1).val < k0_off2 ⟨(z 0).val / 512, hk⟩ 1 + 128
              rw [k0_off2_1]; omega

/-- After the eight trips head 1 of the output buffer reads as head 1's function, whatever the buffer held. -/
theorem head1_after (M1 M4 : Memref sig .tc .vmem S2x4096x128 .f32) (h1 : M1.IsWhole) (x1 x2 x3 : Vec F S2x4096x128 .f32)
    (g : BufTy.Contents (Elt F) M4.view.ty) (z : S4096x128.Idx) :
    (head1 M4).view.read (Elt F) ((head1 M4).view.writes (Elt F) g
      (pb2 M1 (h1.unread x1) (headRows x2 1) (headRows x3 1) k0_t2_loop.trips)) z = headOut1 x1 x2 x3 z :=
  View.read_writes_apply_of_pieces _ _ (headOut1 x1 x2 x3) _
    (fun p hp x => by
      obtain ⟨k, rfl⟩ := mem_pb2 M1 _ _ _ _ p hp
      exact piece2_agrees M1 h1 x1 x2 x3 k x)
    z (cover2 M1 _ _ _ z)

/-! ## The block -/

/-- The output block: head 0's function on row 0, head 1's on row 1. -/
def outBlock (x1 x2 x3 : Vec F S2x4096x128 .f32) : Vec F S2x4096x128 .f32 := fun y =>
  if (y 0).val = 0 then headOut0 x1 x2 x3 (ix2 (⟨(y 1).val, (y 1).isLt⟩ : Fin 4096) (⟨(y 2).val, (y 2).isLt⟩ : Fin 128))
  else headOut1 x1 x2 x3 (ix2 (⟨(y 1).val, (y 1).isLt⟩ : Fin 4096) (⟨(y 2).val, (y 2).isLt⟩ : Fin 128))

/-- No index of head 1 is an element of head 0: their first coordinates differ. -/
theorem head1_emb_ne (M : Memref sig .tc .vmem S2x4096x128 .f32) (y : S2x4096x128.Idx) (hy : (y 0).val = 0) (z' : S4096x128.Idx) :
    (head1 M).view.emb z' ≠ M.view.emb y := by
  intro hEq
  have h' : M.view.emb ((Rect.unit (s := S2x4096x128) ![1, 0, 0] S1x4096x128.size inb_S2x4096x128_S1x4096x128_1_0_0).emb
      (Shape.reshapeEquiv squeezes_S1x4096x128_S4096x128.numel_eq z')) = M.view.emb y := hEq
  have h'' := congrArg (fun i : S2x4096x128.Idx => (i 0).val) (M.view.emb.injective h')
  have : 1 + 1 * ((Shape.reshapeEquiv squeezes_S1x4096x128_S4096x128.numel_eq z') 0).val = (y 0).val := h''
  omega

/-- THE BLOCK AFTER THE BODY: both heads written, the block reads as outBlock of the input blocks, whatever it held. -/
theorem read_after (M1 M4 : Memref sig .tc .vmem S2x4096x128 .f32) (h1 : M1.IsWhole) (x1 x2 x3 : Vec F S2x4096x128 .f32)
    (g : BufTy.Contents (Elt F) M4.view.ty) :
    M4.view.read (Elt F) ((head1 M4).view.writes (Elt F) ((head0 M4).view.writes (Elt F) g
        (pb1 M1 (h1.unread x1) (headRows x2 0) (headRows x3 0) k0_t1_loop.trips))
        (pb2 M1 (h1.unread x1) (headRows x2 1) (headRows x3 1) k0_t2_loop.trips))
      = outBlock x1 x2 x3 := by
  funext y
  have hy0 : (y 0).val < 2 := (y 0).isLt
  have hy : y = ix3 (⟨(y 0).val, hy0⟩ : Fin 2) (⟨(y 1).val, (y 1).isLt⟩ : Fin 4096) (⟨(y 2).val, (y 2).isLt⟩ : Fin 128) :=
    funext fun a => Fin.ext (by match a with | ⟨0, _⟩ => rfl | ⟨1, _⟩ => rfl | ⟨2, _⟩ => rfl)
  unfold outBlock
  by_cases h0 : (y 0).val = 0
  · rw [if_pos h0, View.read_apply, View.writes_apply_of_forall_ne _ _ _ (head1_emb_ne M4 y h0), ← View.read_apply,
      ← head0_after M1 M4 h1 x1 x2 x3 g, head0_read]
    congr 1
    rw [hy]
    funext a; apply Fin.ext
    match a with
    | ⟨0, _⟩ => exact h0
    | ⟨1, _⟩ => rfl
    | ⟨2, _⟩ => rfl
  · have h1' : (y 0).val = 1 := by omega
    rw [if_neg h0, ← head1_after M1 M4 h1 x1 x2 x3 _, head1_read]
    congr 1
    rw [hy]
    funext a; apply Fin.ext
    match a with
    | ⟨0, _⟩ => exact h1'
    | ⟨1, _⟩ => rfl
    | ⟨2, _⟩ => rfl

end Cert.KernelIdeal.Body

end
-- ==== Proof.Ideal.Body.lean ====
/-
  The pipeline's body and its frame.

  At every grid point the body is handed the point's blocks of Q, K and V (two heads each) and an output block
  holding anything. It loads head 0's K and V, runs head 0's eight chunks, then the same for head 1, and returns.
  It leaves the three inputs as they were and the output block at outBlock of the inputs — a
  function of the inputs alone, since the sixteen chunk stores cover the block. With that as what each point
  writes back, the launch theorem gives the run of the whole program: it terminates, nothing faults, and every
  array ends at what the points' write-backs compose to, the arguments untouched.
-/
import proofs.«160901_j80161269613187_2_alg».proof.Proof.Ideal.BlockValue
import proofs.«160901_j80161269613187_2_alg».proof.Proof.Gen.KernelIdeal.Frame
import proofs.«160901_j80161269613187_2_alg».proof.Proof.Gen.KernelIdeal.Skeleton
import Idealize.ShloMosaic.Lib.Tactic

set_option maxRecDepth 8192
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any whole staging memrefs -/

/-- The body's triple: the three input blocks read x1, x2, x3 and come back as they were; the output block, at
    anything, comes back reading outBlock x1 x2 x3. Each loop is gone through by the counted-loop rule at its invariant,
    one trip proved once over a symbolic trip. -/
theorem kernelRun (c : Dev nD) (E : Set ℕ) (i : grid0.Coords)
    (M1 : Memref sig .tc .vmem S2x4096x128 .f32) (h1 : M1.IsWhole) (M2 : Memref sig .tc .vmem S2x4096x128 .f32) (h2 : M2.IsWhole)
    (M3 : Memref sig .tc .vmem S2x4096x128 .f32) (h3 : M3.IsWhole) (M4 : Memref sig .tc .vmem S2x4096x128 .f32) (h4 : M4.IsWhole)
    (x1 x2 x3 : Vec F S2x4096x128 .f32) (K : PUnit → sProp 𝕄) :
    iprop(owns (c : Thread nD τ) M1 fullShare x1 ∗ owns (c : Thread nD τ) M2 fullShare x2 ∗ owns (c : Thread nD τ) M3 fullShare x3
        ∗ (∃ d, owns (c : Thread nD τ) M4 fullShare d)
        ∗ (iprop(owns (c : Thread nD τ) M1 fullShare x1 ∗ owns (c : Thread nD τ) M2 fullShare x2 ∗ owns (c : Thread nD τ) M3 fullShare x3
            ∗ owns (c : Thread nD τ) M4 fullShare (outBlock x1 x2 x3)) -∗ K ⟨⟩))
      ⊢ wp frame (wpE (defs₀ (F := F)) Variants.none c none) E (cc0__linear_attn_kernel i M1 h1 M2 h2 M3 h3 M4 h4) K := by
  unfold owns
  iintro ⟨⟨%f1, %hf1, H1⟩, ⟨%f2, %hf2, H2⟩, ⟨%f3, %hf3, H3⟩, ⟨%d4, %f4, -, H4⟩, Hk⟩
  obtain rfl := h1.eq_unread hf1; obtain rfl := h2.eq_unread hf2; obtain rfl := h3.eq_unread hf3
  simp only [cc0__linear_attn_kernel_eq_skeleton]; unfold cc0__linear_attn_kernel_skel
  simp only [Prog.lift, Prog.bind_op, Prog.bind_ret, Prog.pure_eq_ret]
  -- head 0: its K and V rows, then its eight chunks by the loop rule at head 0's invariant
  iapply (wp_load Variants.none (c : Thread nD τ) none E (m := M2) (View.setOn_subset_set _ _)) $$ H2; iintro H2
  iapply (wp_load Variants.none (c : Thread nD τ) none E (m := M3) (View.setOn_subset_set _ _)) $$ H3; iintro H3
  iapply (Scf.wp_for_bind Idealize.ShloMosaic.frame (wpE (defs₀ (F := F)) Variants.none (c : Thread nD τ) none) E
    k0_t1_loop.lb k0_t1_loop.ub k0_t1_loop.st k0_t1_ok () _
    (inv1 (F := F) c M1 M4 _ _ (h1.unread x1) f4)
    (step1 (F := F) Variants.none c none E i M1 h1 M2 h2 M3 h3 M4 h4 _ _ (h1.unread x1) f4)) $$ [H1 H4]
  · isplitl [H1]; · iexact H1
    iexists _; isplitl [H4]; · iexact H4
    ipureintro; rfl
  iintro %u1 Hinv
  icases Hinv with ⟨H1, ⟨%g4, H4, %hg4⟩⟩
  subst hg4
  -- head 1 likewise, over what head 0's loop left
  iapply (wp_load Variants.none (c : Thread nD τ) none E (m := M2) (View.setOn_subset_set _ _)) $$ H2; iintro H2
  iapply (wp_load Variants.none (c : Thread nD τ) none E (m := M3) (View.setOn_subset_set _ _)) $$ H3; iintro H3
  iapply (Scf.wp_for_bind Idealize.ShloMosaic.frame (wpE (defs₀ (F := F)) Variants.none (c : Thread nD τ) none) E
    k0_t2_loop.lb k0_t2_loop.ub k0_t2_loop.st k0_t2_ok () _
    (inv2 (F := F) c M1 M4 _ _ (h1.unread x1) _)
    (step2 (F := F) Variants.none c none E i M1 h1 M2 h2 M3 h3 M4 h4 _ _ (h1.unread x1) _)) $$ [H1 H4]
  · isplitl [H1]; · iexact H1
    iexists _; isplitl [H4]; · iexact H4
    ipureintro; rfl
  iintro %u2 Hinv
  icases Hinv with ⟨H1, ⟨%g4, H4, %hg4⟩⟩
  subst hg4
  rw [wp_ret]; imodintro
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  iexists _; isplitr
  swap; · iexact H4
  ipureintro
  rw [load_head0 M2 h2 x2, load_head0 M3 h3 x3, load_head1 M2 h2 x2, load_head1 M3 h3 x3]
  exact read_after M1 M4 h1 x1 x2 x3 f4

/-! ## The pipeline's proof data -/

/-- The arrays as the region finds them; after the body at point t each input's buffer at its block and the output's
    at outBlock of the three input blocks; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    empty debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (kernelRun c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, nothing faulting, and
    ends with every array of the pipeline at what the points' write-backs compose to and every other buffer as the
    reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.Ideal.ArrayValue.lean ====
/-
  From blocks to arrays, and through the reshapes around the region.

  The region's arrays are [64,4096,128]: the 4×16 (batch, head) pairs flattened row-major, head 16b+h. Grid point t
  works on heads 2t and 2t+1, its windows' blocks being those two heads of each array, and writes back outBlock of its
  three input blocks. So the output array ends, at (n, r, e), holding outBlock of blocks n / 2 of Q, K, V read at
  (n % 2, r, e): the 32 blocks tile the array. Before the region the three arguments are re-laid
  [4,16,4096,128] → [64,4096,128]; after it the output is re-laid back. A re-laying keeps row-major position, so
  (n, r, e) of the flat array is (n / 16, n % 16, r, e) of the 4-D one.
-/
import proofs.«160901_j80161269613187_2_alg».proof.Proof.Ideal.Body
import Idealize.ShloMosaic.Lib.Pipeline.Value
import Idealize.ShloMosaic.Lib.ValueIdx
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem

variable {F : FTy → Type} [FloatOps F]

variable (m : (ℓ : Loc nD τ sig) → Buf (Elt F) ℓ) (ρ : Dev nD → PrngReg)

/-! ## Blocks of a flat array -/

/-- Heads 2t and 2t+1 of a [64,4096,128] array (t < 32 in every use; the head is taken modulo 64 so that the definition
    needs no bound). -/
def blockOf (x : Vec F S64x4096x128 .f32) (t : ℕ) : Vec F S2x4096x128 .f32 :=
  fun y => x (ix3 (⟨(2 * t + (y 0).val) % 64, Nat.mod_lt _ (by decide)⟩ : Fin 64) (⟨(y 1).val, (y 1).isLt⟩ : Fin 4096) (⟨(y 2).val, (y 2).isLt⟩ : Fin 128))

/-- Every window's index map sends point t to block (t, 0, 0): decided over the 32 points. -/
theorem idx0_0 : ∀ t : Fin cfg0.N, win0_0.index t (0 : Fin 3) = t.val := (by decide +kernel : ∀ t : Fin grid0.N, _)
theorem idx0_1 : ∀ t : Fin cfg0.N, win0_0.index t (1 : Fin 3) = 0 := (by decide +kernel : ∀ t : Fin grid0.N, _)
theorem idx0_2 : ∀ t : Fin cfg0.N, win0_0.index t (2 : Fin 3) = 0 := (by decide +kernel : ∀ t : Fin grid0.N, _)
theorem idx1_0 : ∀ t : Fin cfg0.N, win0_1.index t (0 : Fin 3) = t.val := (by decide +kernel : ∀ t : Fin grid0.N, _)
theorem idx1_1 : ∀ t : Fin cfg0.N, win0_1.index t (1 : Fin 3) = 0 := (by decide +kernel : ∀ t : Fin grid0.N, _)
theorem idx1_2 : ∀ t : Fin cfg0.N, win0_1.index t (2 : Fin 3) = 0 := (by decide +kernel : ∀ t : Fin grid0.N, _)
theorem idx2_0 : ∀ t : Fin cfg0.N, win0_2.index t (0 : Fin 3) = t.val := (by decide +kernel : ∀ t : Fin grid0.N, _)
theorem idx2_1 : ∀ t : Fin cfg0.N, win0_2.index t (1 : Fin 3) = 0 := (by decide +kernel : ∀ t : Fin grid0.N, _)
theorem idx2_2 : ∀ t : Fin cfg0.N, win0_2.index t (2 : Fin 3) = 0 := (by decide +kernel : ∀ t : Fin grid0.N, _)
theorem idx3_0 : ∀ t : Fin cfg0.N, win0_3.index t (0 : Fin 3) = t.val := (by decide +kernel : ∀ t : Fin grid0.N, _)
theorem idx3_1 : ∀ t : Fin cfg0.N, win0_3.index t (1 : Fin 3) = 0 := (by decide +kernel : ∀ t : Fin grid0.N, _)
theorem idx3_2 : ∀ t : Fin cfg0.N, win0_3.index t (2 : Fin 3) = 0 := (by decide +kernel : ∀ t : Fin grid0.N, _)

/-- Window 0's block at point t is heads 2t and 2t+1 of its array. -/
theorem iblk0_eq (c : Dev nD) (t : Fin cfg0.N) : (iblk m c 0 t : Vec F S2x4096x128 .f32) = blockOf (V m c main_v0) t.val := by
  funext y
  have ht : t.val < 32 := lt_of_lt_of_eq t.isLt N_0
  have hy0 : (y 0).val < 2 := (y 0).isLt
  unfold iblk blockOf
  rw [View.read_apply]
  show V m c main_v0 _ = V m c main_v0 _
  congr 1
  funext a
  apply Fin.ext
  match a with
  | ⟨0, _⟩ => show win0_0.index t 0 * 2 + 1 * (y 0).val = (2 * t.val + (y 0).val) % 64; rw [idx0_0]; omega
  | ⟨1, _⟩ => show win0_0.index t 1 * 4096 + 1 * (y 1).val = (y 1).val; rw [idx0_1]; omega
  | ⟨2, _⟩ => show win0_0.index t 2 * 128 + 1 * (y 2).val = (y 2).val; rw [idx0_2]; omega
/-- Window 1's block at point t is heads 2t and 2t+1 of its array. -/
theorem iblk1_eq (c : Dev nD) (t : Fin cfg0.N) : (iblk m c 1 t : Vec F S2x4096x128 .f32) = blockOf (V m c main_v1) t.val := by
  funext y
  have ht : t.val < 32 := lt_of_lt_of_eq t.isLt N_0
  have hy0 : (y 0).val < 2 := (y 0).isLt
  unfold iblk blockOf
  rw [View.read_apply]
  show V m c main_v1 _ = V m c main_v1 _
  congr 1
  funext a
  apply Fin.ext
  match a with
  | ⟨0, _⟩ => show win0_1.index t 0 * 2 + 1 * (y 0).val = (2 * t.val + (y 0).val) % 64; rw [idx1_0]; omega
  | ⟨1, _⟩ => show win0_1.index t 1 * 4096 + 1 * (y 1).val = (y 1).val; rw [idx1_1]; omega
  | ⟨2, _⟩ => show win0_1.index t 2 * 128 + 1 * (y 2).val = (y 2).val; rw [idx1_2]; omega
/-- Window 2's block at point t is heads 2t and 2t+1 of its array. -/
theorem iblk2_eq (c : Dev nD) (t : Fin cfg0.N) : (iblk m c 2 t : Vec F S2x4096x128 .f32) = blockOf (V m c main_v2) t.val := by
  funext y
  have ht : t.val < 32 := lt_of_lt_of_eq t.isLt N_0
  have hy0 : (y 0).val < 2 := (y 0).isLt
  unfold iblk blockOf
  rw [View.read_apply]
  show V m c main_v2 _ = V m c main_v2 _
  congr 1
  funext a
  apply Fin.ext
  match a with
  | ⟨0, _⟩ => show win0_2.index t 0 * 2 + 1 * (y 0).val = (2 * t.val + (y 0).val) % 64; rw [idx2_0]; omega
  | ⟨1, _⟩ => show win0_2.index t 1 * 4096 + 1 * (y 1).val = (y 1).val; rw [idx2_1]; omega
  | ⟨2, _⟩ => show win0_2.index t 2 * 128 + 1 * (y 2).val = (y 2).val; rw [idx2_2]; omega

/-! ## The output array -/

/-- The output array as a function of the three flat input arrays: at (n, r, e), outBlock of blocks n / 2 read at
    (n % 2, r, e). -/
def flatOut (q k v : Vec F S64x4096x128 .f32) : Vec F S64x4096x128 .f32 := fun i =>
  outBlock (blockOf q ((i 0).val / 2)) (blockOf k ((i 0).val / 2)) (blockOf v ((i 0).val / 2))
    (ix3 (⟨(i 0).val % 2, Nat.mod_lt _ (by decide)⟩ : Fin 2) (⟨(i 1).val, (i 1).isLt⟩ : Fin 4096) (⟨(i 2).val, (i 2).isLt⟩ : Fin 128))

/-- At the element of block t that sits at y within the block, the output array is outBlock of blocks t at y. -/
theorem flatOut_block (q k v : Vec F S64x4096x128 .f32) (t : ℕ) (y : S2x4096x128.Idx) (i : S64x4096x128.Idx)
    (h0 : (i 0).val = 2 * t + (y 0).val) (h1 : (i 1).val = (y 1).val) (h2 : (i 2).val = (y 2).val) :
    flatOut q k v i = outBlock (blockOf q t) (blockOf k t) (blockOf v t) y := by
  have hy0 : (y 0).val < 2 := (y 0).isLt
  unfold flatOut
  rw [show (i 0).val / 2 = t from by omega]
  congr 1
  funext a
  apply Fin.ext
  match a with
  | ⟨0, _⟩ => show (i 0).val % 2 = (y 0).val; omega
  | ⟨1, _⟩ => exact h1
  | ⟨2, _⟩ => exact h2

/-- What point t writes back is its block of the output array. -/
theorem flushed_eq (c : Dev nD) (t : Fin cfg0.N) (hf : (cfg0.win 3).flush t = true) :
    (dats m 0 c).flushed 3 t
      = ((cfg0.win 3).blk t).view.read (Elt F) (flatOut (V m c main_v0) (V m c main_v1) (V m c main_v2)) := by
  show (cfg0.win 3).cut (grid0.coords t) ((dats m 0 c).after 3 t) = _
  rw [after0_3, iblk0_eq, iblk1_eq, iblk2_eq]
  funext y
  rw [View.read_apply]
  refine (flatOut_block _ _ _ t.val y _ ?_ ?_ ?_).symm
  · show win0_3.index t 0 * 2 + 1 * (y 0).val = 2 * t.val + (y 0).val; rw [idx3_0]; omega
  · show win0_3.index t 1 * 4096 + 1 * (y 1).val = (y 1).val; rw [idx3_1]; omega
  · show win0_3.index t 2 * 128 + 1 * (y 2).val = (y 2).val; rw [idx3_2]; omega

/-- The 32 blocks tile the output array, so it ends holding flatOut of the three flat inputs. -/
theorem final_out (c : Dev nD) :
    (dats m 0 c).arrAt 3 cfg0.N = flatOut (V m c main_v0) (V m c main_v1) (V m c main_v2) :=
  (dats m 0 c).arrAt_eq_of_cover 3 _ (flushed_eq m c) fun i => by
    have hi0 : (i 0).val < 64 := (i 0).isLt
    have hi1 : (i 1).val < 4096 := (i 1).isLt
    have hi2 : (i 2).val < 128 := (i 2).isLt
    have ht : (i 0).val / 2 < cfg0.N := by rw [show cfg0.N = 32 from N_0]; omega
    refine ⟨⟨(i 0).val / 2, ht⟩, flush0_3 _, ?_⟩
    show i ∈ ((View.whole main_v3).slice (win0_3.rect ⟨(i 0).val / 2, ht⟩)).set
    rw [View.set_slice_whole, Rect.mem_set_unit]
    intro a
    match a with
    | ⟨0, _⟩ => show win0_3.index ⟨(i 0).val / 2, ht⟩ 0 * win0_3.size 0 ≤ (i 0 : Nat) ∧ (i 0 : Nat) < win0_3.index ⟨(i 0).val / 2, ht⟩ 0 * win0_3.size 0 + win0_3.xsize (grid0.coords ⟨(i 0).val / 2, ht⟩) 0
                rw [idx3_0]; show (i 0).val / 2 * 2 ≤ (i 0).val ∧ (i 0).val < (i 0).val / 2 * 2 + 2; omega
    | ⟨1, _⟩ => show win0_3.index ⟨(i 0).val / 2, ht⟩ 1 * win0_3.size 1 ≤ (i 1 : Nat) ∧ (i 1 : Nat) < win0_3.index ⟨(i 0).val / 2, ht⟩ 1 * win0_3.size 1 + win0_3.xsize (grid0.coords ⟨(i 0).val / 2, ht⟩) 1
                rw [idx3_1]; show 0 * 4096 ≤ (i 1).val ∧ (i 1).val < 0 * 4096 + 4096; omega
    | ⟨2, _⟩ => show win0_3.index ⟨(i 0).val / 2, ht⟩ 2 * win0_3.size 2 ≤ (i 2 : Nat) ∧ (i 2 : Nat) < win0_3.index ⟨(i 0).val / 2, ht⟩ 2 * win0_3.size 2 + win0_3.xsize (grid0.coords ⟨(i 0).val / 2, ht⟩) 2
                rw [idx3_2]; show 0 * 128 ≤ (i 2).val ∧ (i 2).val < 0 * 128 + 128; omega

/-! ## The reshapes around the region -/

/-- The region finds each flat array at the re-laying of its argument. -/
theorem V_v0 (c : Dev nD) : (V m c main_v0 : Vec F S64x4096x128 .f32)
    = shapeCast S64x4096x128 (m ((c : Thread nD τ).loc main_arg0)) shapeCasts_S4x16x4096x128_S64x4096x128 := by
  show StableHlo.after hostOps0 (fun b => m (c, b)) (Proc.devRef .tc main_v0) = _
  after_results
  rfl
theorem V_v1 (c : Dev nD) : (V m c main_v1 : Vec F S64x4096x128 .f32)
    = shapeCast S64x4096x128 (m ((c : Thread nD τ).loc main_arg1)) shapeCasts_S4x16x4096x128_S64x4096x128 := by
  show StableHlo.after hostOps0 (fun b => m (c, b)) (Proc.devRef .tc main_v1) = _
  after_results
  rfl
theorem V_v2 (c : Dev nD) : (V m c main_v2 : Vec F S64x4096x128 .f32)
    = shapeCast S64x4096x128 (m ((c : Thread nD τ).loc main_arg2)) shapeCasts_S4x16x4096x128_S64x4096x128 := by
  show StableHlo.after hostOps0 (fun b => m (c, b)) (Proc.devRef .tc main_v2) = _
  after_results
  rfl

/-- After the region the result is the re-laying of the output array. -/
theorem tail_v4 (c : Dev nD) :
    Pipeline.afterTail₀ cfgs (dats m) 0 (V0 m) [hostOps1] c main_v4
      = shapeCast S4x16x4096x128 (flatOut (V m c main_v0) (V m c main_v1) (V m c main_v2)) shapeCasts_S64x4096x128_S4x16x4096x128 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v3)
      = flatOut (V m c main_v0) (V m c main_v1) (V m c main_v2) :=
    (Pipeline.withArrays_arr spec0 launch0.win.arr_inj c _ _ 3).trans (final_out m c)
  rw [e]
  rfl

/-! ## The run, with the result named -/

/-- The program's result as a function of its three arguments: re-lay each flat, take flatOut, re-lay back. -/
def kernelOut (Q K V : Vec F S4x16x4096x128 .f32) : Vec F S4x16x4096x128 .f32 :=
  shapeCast S4x16x4096x128
    (flatOut (shapeCast S64x4096x128 Q shapeCasts_S4x16x4096x128_S64x4096x128)
      (shapeCast S64x4096x128 K shapeCasts_S4x16x4096x128_S64x4096x128)
      (shapeCast S64x4096x128 V shapeCasts_S4x16x4096x128_S64x4096x128))
    shapeCasts_S64x4096x128_S4x16x4096x128

/-- Every weakly fair execution terminates, nothing faulting, with the result at kernelOut of the arguments as
    launched and the arguments unchanged. -/
theorem run : θ_run defs (onTc (τ := τ) (main (F := F))) ⟨m, fun _ => 0, ρ⟩ fun r => ∀ c : Dev nD,
      r.2.mem ((c.tc : Thread nD τ).loc main_v4)
        = kernelOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans
        ((tail_v4 m c).trans (by rw [V_v0, V_v1, V_v2]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Body

end
-- ==== Proof.Payload.lean ====
/-
  The value one store of the kernel writes, read at one element.

  Each of the kernel's two stores writes a [512,128] block `out` computed from three loaded blocks: K and V, each
  [1,4096,128], and Q, [512,128]. With the leading unit axis of K and V dropped,

      kv[d, e]  = ∑ s, K[s, d] * V[s, e]        (a product contracting axis 0 of both operands: Kᵀ V, [128,128])
      out[r, e] = ∑ d, Q[r, d] * kv[d, e]       (a product contracting Q's axis 1 with kv's axis 0: Q (Kᵀ V))

  Both products accumulate into a zero block, and every change of number format between them is the identity on the
  ideal values, so at an element (r, e) the stored value is the double sum

      ∑ d, Q[r, d] * ∑ s, K[0, s, d] * V[0, s, e].

  This module proves that, and nothing else: it is about two matrix products and never mentions memory.
-/
import proofs.«160901_j80161269613187_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## The inner product `kv = Kᵀ V`: which operand element each contraction position reads

The dimension numbers contract axis 0 of both [4096,128] operands; the result's axis 0 is the left operand's axis 1 and
its axis 1 is the right operand's axis 1. So at result index `j` and contraction position `k` the left operand is
read at `(k, j 0)` and the right operand at `(k, j 1)`. -/

/-- Left operand, axis 0: the contracted axis, so the coordinate is the contraction position. -/
theorem kv_lhs_0 (j : S128x128.Idx) (k : dot_S4096x128_S4096x128_S128x128_0_0_1_1_n_n.contr.Idx) :
    (dot_S4096x128_S4096x128_S128x128_0_0_1_1_n_n.lhsIdx j k 0).val = (k ⟨0, by decide⟩).val :=
  dot_S4096x128_S4096x128_S128x128_0_0_1_1_n_n.lhsIdx_val_of_single rfl j k

/-- Left operand, axis 1: its one free axis, which is the result's axis 0. -/
theorem kv_lhs_1 (j : S128x128.Idx) (k : dot_S4096x128_S4096x128_S128x128_0_0_1_1_n_n.contr.Idx) :
    (dot_S4096x128_S4096x128_S128x128_0_0_1_1_n_n.lhsIdx j k 1).val = (j 0).val := by
  unfold DotDims.lhsIdx
  rw [dif_neg (show ¬(1 : Fin S4096x128.rank) ∈ dot_S4096x128_S4096x128_S128x128_0_0_1_1_n_n.lhsBatch by decide),
    dif_pos (show (1 : Fin S4096x128.rank) ∈ dot_S4096x128_S4096x128_S128x128_0_0_1_1_n_n.lhsNonContracting by decide)]
  rfl

/-- Right operand, axis 0: the contracted axis again. -/
theorem kv_rhs_0 (j : S128x128.Idx) (k : dot_S4096x128_S4096x128_S128x128_0_0_1_1_n_n.contr.Idx) :
    (dot_S4096x128_S4096x128_S128x128_0_0_1_1_n_n.rhsIdx j k 0).val = (k ⟨0, by decide⟩).val :=
  dot_S4096x128_S4096x128_S128x128_0_0_1_1_n_n.rhsIdx_val_of_single rfl j k

/-- Right operand, axis 1: its one free axis, which is the result's axis 1 (the result lists the left operand's free
    axes before the right operand's). -/
theorem kv_rhs_1 (j : S128x128.Idx) (k : dot_S4096x128_S4096x128_S128x128_0_0_1_1_n_n.contr.Idx) :
    (dot_S4096x128_S4096x128_S128x128_0_0_1_1_n_n.rhsIdx j k 1).val = (j 1).val := by
  unfold DotDims.rhsIdx
  rw [dif_neg (show ¬(1 : Fin S4096x128.rank) ∈ dot_S4096x128_S4096x128_S128x128_0_0_1_1_n_n.rhsBatch by decide),
    dif_pos (show (1 : Fin S4096x128.rank) ∈ dot_S4096x128_S4096x128_S128x128_0_0_1_1_n_n.rhsNonContracting by decide)]
  rfl

/-- The inner product into a zero accumulator, read at `(d, e)`: the accumulator contributes `0`, and the sum over the
    contraction positions, re-indexed by the one coordinate a position has, is the sum over the 4096 rows `s` of
    `A[s, d] * B[s, e]`. -/
theorem kv_apply (A B : FVec Ideal S4096x128 .bf16) (d e : Fin 128) :
    matmul (F := Ideal) dot_S4096x128_S4096x128_S128x128_0_0_1_1_n_n none A B (constant S128x128 .f32 0x00000000#32) (ix2 d e)
      = ∑ s : Fin 4096, A (ix2 s d) * B (ix2 s e) := by
  simp only [matmul]
  rw [Ideal.matmul_constant_zero_apply,
    ← Equiv.sum_comp (contrEquiv1 dot_S4096x128_S4096x128_S128x128_0_0_1_1_n_n 4096 rfl rfl).symm]
  refine Finset.sum_congr rfl fun s _ => ?_
  -- the contraction position that `s` names has `s` as its one coordinate
  have hs := contrEquiv1_symm_val dot_S4096x128_S4096x128_S128x128_0_0_1_1_n_n 4096 rfl rfl s
  have el : dot_S4096x128_S4096x128_S128x128_0_0_1_1_n_n.lhsIdx (ix2 d e)
      ((contrEquiv1 dot_S4096x128_S4096x128_S128x128_0_0_1_1_n_n 4096 rfl rfl).symm s) = ix2 s d :=
    funext fun a => Fin.ext (by
      match a with
      | ⟨0, _⟩ => exact (kv_lhs_0 _ _).trans hs
      | ⟨1, _⟩ => exact kv_lhs_1 _ _)
  have er : dot_S4096x128_S4096x128_S128x128_0_0_1_1_n_n.rhsIdx (ix2 d e)
      ((contrEquiv1 dot_S4096x128_S4096x128_S128x128_0_0_1_1_n_n 4096 rfl rfl).symm s) = ix2 s e :=
    funext fun a => Fin.ext (by
      match a with
      | ⟨0, _⟩ => exact (kv_rhs_0 _ _).trans hs
      | ⟨1, _⟩ => exact kv_rhs_1 _ _)
  rw [el, er]

/-! ## The outer product `out = Q kv`: which operand element each contraction position reads

The dimension numbers contract axis 1 of the [512,128] left operand with axis 0 of the [128,128] right operand; the
result's axis 0 is the left operand's axis 0 and its axis 1 is the right operand's axis 1. So at result index `j` and
contraction position `k` the left operand is read at `(j 0, k)` and the right operand at `(k, j 1)`: the ordinary
matrix product. -/

/-- Left operand, axis 0: its one free axis, which is the result's axis 0. -/
theorem out_lhs_0 (j : S512x128.Idx) (k : dot_S512x128_S128x128_S512x128_1_0_0_1_n_n.contr.Idx) :
    (dot_S512x128_S128x128_S512x128_1_0_0_1_n_n.lhsIdx j k 0).val = (j 0).val := by
  unfold DotDims.lhsIdx
  rw [dif_neg (show ¬(0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl

/-- Left operand, axis 1: the contracted axis, so the coordinate is the contraction position. -/
theorem out_lhs_1 (j : S512x128.Idx) (k : dot_S512x128_S128x128_S512x128_1_0_0_1_n_n.contr.Idx) :
    (dot_S512x128_S128x128_S512x128_1_0_0_1_n_n.lhsIdx j k 1).val = (k ⟨0, by decide⟩).val :=
  dot_S512x128_S128x128_S512x128_1_0_0_1_n_n.lhsIdx_val_of_single rfl j k

/-- Right operand, axis 0: the contracted axis. -/
theorem out_rhs_0 (j : S512x128.Idx) (k : dot_S512x128_S128x128_S512x128_1_0_0_1_n_n.contr.Idx) :
    (dot_S512x128_S128x128_S512x128_1_0_0_1_n_n.rhsIdx j k 0).val = (k ⟨0, by decide⟩).val :=
  dot_S512x128_S128x128_S512x128_1_0_0_1_n_n.rhsIdx_val_of_single rfl j k

/-- Right operand, axis 1: its one free axis, which is the result's axis 1. -/
theorem out_rhs_1 (j : S512x128.Idx) (k : dot_S512x128_S128x128_S512x128_1_0_0_1_n_n.contr.Idx) :
    (dot_S512x128_S128x128_S512x128_1_0_0_1_n_n.rhsIdx j k 1).val = (j 1).val := by
  unfold DotDims.rhsIdx
  rw [dif_neg (show ¬(1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

/-- The outer product into a zero accumulator, read at `(r, e)`: row `r` of the left operand against column `e` of the
    right operand, summed over the 128 contracted positions `d`. -/
theorem out_apply (A : FVec Ideal S512x128 .bf16) (B : FVec Ideal S128x128 .bf16) (r : Fin 512) (e : Fin 128) :
    matmul (F := Ideal) dot_S512x128_S128x128_S512x128_1_0_0_1_n_n none A B (constant S512x128 .f32 0x00000000#32) (ix2 r e)
      = ∑ d : Fin 128, A (ix2 r d) * B (ix2 d e) := by
  simp only [matmul]
  rw [Ideal.matmul_constant_zero_apply,
    ← Equiv.sum_comp (contrEquiv1 dot_S512x128_S128x128_S512x128_1_0_0_1_n_n 128 rfl rfl).symm]
  refine Finset.sum_congr rfl fun d _ => ?_
  have hd := contrEquiv1_symm_val dot_S512x128_S128x128_S512x128_1_0_0_1_n_n 128 rfl rfl d
  have el : dot_S512x128_S128x128_S512x128_1_0_0_1_n_n.lhsIdx (ix2 r e)
      ((contrEquiv1 dot_S512x128_S128x128_S512x128_1_0_0_1_n_n 128 rfl rfl).symm d) = ix2 r d :=
    funext fun a => Fin.ext (by
      match a with
      | ⟨0, _⟩ => exact out_lhs_0 _ _
      | ⟨1, _⟩ => exact (out_lhs_1 _ _).trans hd)
  have er : dot_S512x128_S128x128_S512x128_1_0_0_1_n_n.rhsIdx (ix2 r e)
      ((contrEquiv1 dot_S512x128_S128x128_S512x128_1_0_0_1_n_n 128 rfl rfl).symm d) = ix2 d e :=
    funext fun a => Fin.ext (by
      match a with
      | ⟨0, _⟩ => exact (out_rhs_0 _ _).trans hd
      | ⟨1, _⟩ => exact out_rhs_1 _ _)
  rw [el, er]

/-! ## The stored value at an element -/

/-- The first store's value at `(r, e)`. Reading outwards in: the outer product is a sum over `d` of `Q[r, d]` times
    `kv[d, e]`; the narrowing of each operand and the same-shape cast of `Q` do not change a value; `kv[d, e]` is the inner
    product, a sum over `s` of `K[s, d] * V[s, e]`; and `K`, `V` with their leading unit axis dropped read the loaded
    blocks at `(0, s, ·)`. -/
theorem pay1_apply (v0 v3 : Vec Ideal S1x4096x128 .f32) (q : Vec Ideal S512x128 .f32) (r : Fin 512) (e : Fin 128) :
    k0_pay1 (F := Ideal) v0 v3 q (ix2 r e)
      = ∑ d : Fin 128, q (ix2 r d) * ∑ s : Fin 4096, v0 (ix3 (0 : Fin 1) s d) * v3 (ix3 (0 : Fin 1) s e) := by
  unfold k0_pay1
  rw [out_apply]
  refine Finset.sum_congr rfl fun d _ => ?_
  -- left factor: `Q` through a cast to its own shape and a narrowing, both the identity;
  -- right factor: `kv` through a narrowing, then the inner product read at `(d, e)`
  rw [truncf_apply, shapeCast_self, truncf_apply, kv_apply]
  -- both sides now have the same left factor; compare the inner sums term by term
  refine congrArg (q (ix2 r d) * ·) (Finset.sum_congr rfl fun s _ => ?_)
  -- each operand of the inner product is a narrowing of a loaded block with its unit axis dropped
  rw [truncf_apply, truncf_apply, shapeCast_1ab_ab_apply, shapeCast_1ab_ab_apply]

/-- The second store's value at `(r, e)`. Its definition is the first's with the blocks renamed, so it unfolds to the
    first store's value at the second store's three blocks, and the first theorem applies. -/
theorem pay2_apply (v9 v12 : Vec Ideal S1x4096x128 .f32) (q : Vec Ideal S512x128 .f32) (r : Fin 512) (e : Fin 128) :
    k0_pay2 (F := Ideal) v9 v12 q (ix2 r e)
      = ∑ d : Fin 128, q (ix2 r d) * ∑ s : Fin 4096, v9 (ix3 (0 : Fin 1) s d) * v12 (ix3 (0 : Fin 1) s e) := by
  show k0_pay1 (F := Ideal) v9 v12 q (ix2 r e) = _
  exact pay1_apply v9 v12 q r e

end Cert.KernelIdeal.Pay

end
-- ==== Proof.Ideal.Algebra.lean ====
/-
  The two programs compute one function.

  At Ideal every operation is the exact one and a change of number format is the identity, so the kernel's two matrix
  products are plain sums. Pushed through the chunks, the heads, the blocks and the two re-layings, the
  kernel's result at (b, h, t, e) is

      Σ_d Q[b,h,t,d] · ( Σ_s K[b,h,s,d] · V[b,h,s,e] ),

  and the reference's two batched contractions, read one after the other, are the same expression: both programs
  form Kᵀ·V first and multiply Q by it, so no law of arithmetic is needed beyond naming the indices — in particular
  nothing here asks the inputs to be finite.
-/
import proofs.«160901_j80161269613187_2_alg».proof.Proof.Ideal.ArrayValue
import proofs.«160901_j80161269613187_2_alg».proof.Proof.Payload
import proofs.«160901_j80161269613187_2_alg».proof.Proof.Gen.ReferenceIdeal.Read
import Idealize.ShloMosaic.Lib.Pipeline.Value
import Idealize.ShloMosaic.Lib.ValueIdx

set_option maxRecDepth 16384

noncomputable section

open scoped BigOperators

namespace Cert.KernelIdeal.Body

open Cert.KernelIdeal Cert.KernelIdeal.Gen
open Idealize.ShloMosaic Idealize.ShloMosaic.ValueIdx

/-! ## The output block at an index -/

/-- Head 0 of the output block at (r, e): the chunk that holds row r contributes its row r % 512, which is row r of
    the head; the head's K and V rows are the block's. -/
theorem headOut0_apply (x1 x2 x3 : Vec Ideal S2x4096x128 .f32) (r : Fin 4096) (e : Fin 128) :
    headOut0 x1 x2 x3 (ix2 r e)
      = ∑ d : Fin 128, x1 (ix3 (0 : Fin 2) r d) * ∑ s : Fin 4096, x2 (ix3 (0 : Fin 2) s d) * x3 (ix3 (0 : Fin 2) s e) := by
  have hr : r.val < 4096 := r.isLt
  unfold headOut0
  rw [Pay.pay1_apply]
  refine Finset.sum_congr rfl fun d _ => ?_
  have hA : chunkRows x1 (0 : Fin 2) (r.val / 512) (ix2 (⟨r.val % 512, Nat.mod_lt _ (by decide)⟩ : Fin 512) d) = x1 (ix3 (0 : Fin 2) r d) := by
    unfold chunkRows
    congr 1
    funext a
    apply Fin.ext
    match a with
    | ⟨0, _⟩ => rfl
    | ⟨1, _⟩ => show (512 * (r.val / 512) + r.val % 512) % 4096 = r.val; omega
    | ⟨2, _⟩ => rfl
  exact congrArg (· * _) hA

/-- Head 1 of the output block at (r, e): the chunk that holds row r contributes its row r % 512, which is row r of
    the head; the head's K and V rows are the block's. -/
theorem headOut1_apply (x1 x2 x3 : Vec Ideal S2x4096x128 .f32) (r : Fin 4096) (e : Fin 128) :
    headOut1 x1 x2 x3 (ix2 r e)
      = ∑ d : Fin 128, x1 (ix3 (1 : Fin 2) r d) * ∑ s : Fin 4096, x2 (ix3 (1 : Fin 2) s d) * x3 (ix3 (1 : Fin 2) s e) := by
  have hr : r.val < 4096 := r.isLt
  unfold headOut1
  rw [Pay.pay2_apply]
  refine Finset.sum_congr rfl fun d _ => ?_
  have hA : chunkRows x1 (1 : Fin 2) (r.val / 512) (ix2 (⟨r.val % 512, Nat.mod_lt _ (by decide)⟩ : Fin 512) d) = x1 (ix3 (1 : Fin 2) r d) := by
    unfold chunkRows
    congr 1
    funext a
    apply Fin.ext
    match a with
    | ⟨0, _⟩ => rfl
    | ⟨1, _⟩ => show (512 * (r.val / 512) + r.val % 512) % 4096 = r.val; omega
    | ⟨2, _⟩ => rfl
  exact congrArg (· * _) hA

/-- The output block at (h, r, e). -/
theorem outBlock_apply (x1 x2 x3 : Vec Ideal S2x4096x128 .f32) (h : Fin 2) (r : Fin 4096) (e : Fin 128) :
    outBlock x1 x2 x3 (ix3 h r e)
      = ∑ d : Fin 128, x1 (ix3 h r d) * ∑ s : Fin 4096, x2 (ix3 h s d) * x3 (ix3 h s e) := by
  unfold outBlock
  match h with
  | ⟨0, _⟩ => rw [if_pos rfl]; exact headOut0_apply x1 x2 x3 r e
  | ⟨1, _⟩ => rw [if_neg (by show ¬ (1 = 0); omega)]; exact headOut1_apply x1 x2 x3 r e

/-! ## The flat output array at an index -/

/-- The flat output at (n, r, e): block n / 2 at head n % 2 is head n of each flat array. -/
theorem flatOut_apply (q k v : Vec Ideal S64x4096x128 .f32) (n : Fin 64) (r : Fin 4096) (e : Fin 128) :
    flatOut q k v (ix3 n r e)
      = ∑ d : Fin 128, q (ix3 n r d) * ∑ s : Fin 4096, k (ix3 n s d) * v (ix3 n s e) := by
  have hn : n.val < 64 := n.isLt
  have hb : ∀ (x : Vec Ideal S64x4096x128 .f32) (a : Fin 4096) (b : Fin 128),
      blockOf x (n.val / 2) (ix3 (⟨n.val % 2, Nat.mod_lt _ (by decide)⟩ : Fin 2) a b) = x (ix3 n a b) := by
    intro x a b
    unfold blockOf
    congr 1
    funext i
    apply Fin.ext
    match i with
    | ⟨0, _⟩ => show (2 * (n.val / 2) + n.val % 2) % 64 = n.val; omega
    | ⟨1, _⟩ => rfl
    | ⟨2, _⟩ => rfl
  show outBlock (blockOf q (n.val / 2)) (blockOf k (n.val / 2)) (blockOf v (n.val / 2))
    (ix3 (⟨n.val % 2, Nat.mod_lt _ (by decide)⟩ : Fin 2) r e) = _
  rw [outBlock_apply]
  simp only [hb]

/-! ## The two re-layings at an index -/

/-- [4,16,4096,128] re-laid flat, at (n, r, e), is the operand at (n / 16, n % 16, r, e): same row-major position. -/
theorem relay_flat {α : Type} (x : S4x16x4096x128.Idx → α) (n : Fin 64) (r : Fin 4096) (e : Fin 128) :
    shapeCast S64x4096x128 x shapeCasts_S4x16x4096x128_S64x4096x128 (ix3 n r e)
      = x (ix4 (⟨n.val / 16, by have := n.isLt; omega⟩ : Fin 4) (⟨n.val % 16, Nat.mod_lt _ (by decide)⟩ : Fin 16) r e) :=
  shapeCast_apply x _ _ _ (by
    have hn : n.val < 64 := n.isLt
    rw [Shape.rowMajor_val_four, Shape.rowMajor_val_three]
    show (((n.val / 16) * 16 + n.val % 16) * 4096 + r.val) * 128 + e.val = (n.val * 4096 + r.val) * 128 + e.val
    omega)

/-- The flat array re-laid back, at (a, b, r, e), is the operand at (16a + b, r, e). -/
theorem relay_back {α : Type} (y : S64x4096x128.Idx → α) (a : Fin 4) (b : Fin 16) (r : Fin 4096) (e : Fin 128) :
    shapeCast S4x16x4096x128 y shapeCasts_S64x4096x128_S4x16x4096x128 (ix4 a b r e)
      = y (ix3 (⟨16 * a.val + b.val, by have := a.isLt; have := b.isLt; omega⟩ : Fin 64) r e) :=
  shapeCast_apply y _ _ _ (by
    rw [Shape.rowMajor_val_three, Shape.rowMajor_val_four]
    show ((16 * a.val + b.val) * 4096 + r.val) * 128 + e.val = ((a.val * 16 + b.val) * 4096 + r.val) * 128 + e.val
    omega)

/-! ## The kernel's result and the reference's result at an index -/

/-- The kernel's result at (a, b, r, e). -/
theorem kernelOut_apply (Q K V : Vec Ideal S4x16x4096x128 .f32) (a : Fin 4) (b : Fin 16) (r : Fin 4096) (e : Fin 128) :
    kernelOut Q K V (ix4 a b r e)
      = ∑ d : Fin 128, Q (ix4 a b r d) * ∑ s : Fin 4096, K (ix4 a b s d) * V (ix4 a b s e) := by
  have ha : a.val < 4 := a.isLt
  have hb : b.val < 16 := b.isLt
  have hx : ∀ (X : Vec Ideal S4x16x4096x128 .f32) (u : Fin 4096) (w : Fin 128),
      shapeCast S64x4096x128 X shapeCasts_S4x16x4096x128_S64x4096x128
        (ix3 (⟨16 * a.val + b.val, by omega⟩ : Fin 64) u w) = X (ix4 a b u w) := by
    intro X u w
    rw [relay_flat]
    congr 1
    funext i
    apply Fin.ext
    match i with
    | ⟨0, _⟩ => show (16 * a.val + b.val) / 16 = a.val; omega
    | ⟨1, _⟩ => show (16 * a.val + b.val) % 16 = b.val; omega
    | ⟨2, _⟩ => rfl
    | ⟨3, _⟩ => rfl
  unfold kernelOut
  rw [relay_back, flatOut_apply]
  simp only [hx]

/-- The reference's result at (a, b, r, e): its two contractions read one after the other. -/
theorem reference_apply (Q K V : Vec Ideal S4x16x4096x128 .f32) (a : Fin 4) (b : Fin 16) (r : Fin 4096) (e : Fin 128) :
    Cert.ReferenceIdeal.Read.val_main_v1 (F := Ideal) Q K V (ix4 a b r e)
      = ∑ d : Fin 128, Q (ix4 a b r d) * ∑ s : Fin 4096, K (ix4 a b s d) * V (ix4 a b s e) := by
  have e1 : ∀ d : Fin 128, Cert.ReferenceIdeal.Read.lidx_main_v1 (ix4 a b r e) d = ix4 a b r d := fun d =>
    funext fun x => by match x with | ⟨0, _⟩ => rfl | ⟨1, _⟩ => rfl | ⟨2, _⟩ => rfl | ⟨3, _⟩ => rfl
  have e2 : ∀ (d : Fin 128) (s : Fin 4096),
      Cert.ReferenceIdeal.Read.lidx_main_v0 (Cert.ReferenceIdeal.Read.ridx_main_v1 (ix4 a b r e) d) s = ix4 a b s d := fun d s =>
    funext fun x => by match x with | ⟨0, _⟩ => rfl | ⟨1, _⟩ => rfl | ⟨2, _⟩ => rfl | ⟨3, _⟩ => rfl
  have e3 : ∀ (d : Fin 128) (s : Fin 4096),
      Cert.ReferenceIdeal.Read.ridx_main_v0 (Cert.ReferenceIdeal.Read.ridx_main_v1 (ix4 a b r e) d) s = ix4 a b s e := fun d s =>
    funext fun x => by match x with | ⟨0, _⟩ => rfl | ⟨1, _⟩ => rfl | ⟨2, _⟩ => rfl | ⟨3, _⟩ => rfl
  rw [Cert.ReferenceIdeal.Read.val_main_v1_apply]
  refine Finset.sum_congr rfl fun d _ => ?_
  rw [Cert.ReferenceIdeal.Read.val_main_v0_apply, e1]
  congr 1
  refine Finset.sum_congr rfl fun s _ => ?_
  rw [e2, e3]

/-- The kernel's result is the reference's. -/
theorem result_eq (Q K V : Vec Ideal S4x16x4096x128 .f32) :
    kernelOut Q K V = Cert.ReferenceIdeal.Read.val_main_v1 (F := Ideal) Q K V := by
  funext i
  have hi : i = ix4 (⟨(i 0).val, (i 0).isLt⟩ : Fin 4) (⟨(i 1).val, (i 1).isLt⟩ : Fin 16) (⟨(i 2).val, (i 2).isLt⟩ : Fin 4096) (⟨(i 3).val, (i 3).isLt⟩ : Fin 128) :=
    funext fun x => Fin.ext (by match x with | ⟨0, _⟩ => rfl | ⟨1, _⟩ => rfl | ⟨2, _⟩ => rfl | ⟨3, _⟩ => rfl)
  rw [hi, kernelOut_apply, reference_apply]

end Cert.KernelIdeal.Body

end
-- ==== Proof.lean ====
/-
  Linear attention, two heads per grid point, against its einsum reference.

  The kernel re-lays Q, K, V from [4,16,4096,128] to [64,4096,128], runs a 32-point grid in which each point takes two
  heads, and for each head forms kv = Kᵀ·V ([128,128]) and then Q·kv in eight chunks of 512 rows, storing each chunk's
  product over its rows of the output; the output is re-laid back. The reference computes einsum('bhtd,bhte->bhde')
  and then einsum('bhtd,bhde->bhte'). Over the extended reals, where every operation is exact and a change of number
  format is the identity, both are

      out[b,h,t,e] = Σ_d Q[b,h,t,d] · ( Σ_s K[b,h,s,d] · V[b,h,s,e] )

  with the same grouping, so the claim needs no law beyond naming indices and never opens the precondition.

  * The frames of the word-level and the idealized kernel: each chunk loop is gone through by an invariant stating
    the output buffer as a list of writes through the head's view, one piece per trip (Words/ and Ideal/HeadLoops);
    the sixteen pieces cover the block, so what a point writes back is a function of its input blocks alone
    (BlockValue), which gives the body's triple, the pipeline's proof data and the run (Body).
  * The reference's frame is its run with the result dropped.
  * The idealization rewrote no operation, so there is nothing to preserve.
  * The algebraic claim: the 32 blocks tile the output array (Ideal/ArrayValue), the two matrix products are plain
    sums at an index (Payload), and the two programs' results are one function (Ideal/Algebra).
-/
import proofs.«160901_j80161269613187_2_alg».proof.Defs
import proofs.«160901_j80161269613187_2_alg».proof.Proof.Gen.Kernel
import proofs.«160901_j80161269613187_2_alg».proof.Proof.Gen.KernelIdeal
import proofs.«160901_j80161269613187_2_alg».proof.Proof.Gen.ReferenceIdeal
import proofs.«160901_j80161269613187_2_alg».proof.Proof.Gen.Pre_finite_inputs
import proofs.«160901_j80161269613187_2_alg».proof.Proof.Gen.ReferenceIdeal.Run
import proofs.«160901_j80161269613187_2_alg».proof.Proof.Gen.ReferenceIdeal.Read
import proofs.«160901_j80161269613187_2_alg».proof.Proof.Words.Body
import proofs.«160901_j80161269613187_2_alg».proof.Proof.Ideal.Algebra
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as launched. -/
theorem frame_kernel : Cert.frame_Kernel := fun m ρ _ => Cert.Kernel.Body.frame m ρ

/-- So does the idealized kernel. -/
theorem frame_kernelIdeal : Cert.frame_KernelIdeal := fun m ρ _ => Cert.KernelIdeal.Body.frame m ρ

/-- The reference is two host operations; its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization is the kernel's own text read over the extended reals: no rewrite, nothing to preserve. -/
theorem preserves : Cert.preserves_Kernel_KernelIdeal := trivial

/-- From memories that agree on the arguments the idealized kernel ends with its result at kernelOut of the arguments
    and the reference with its result at its two contractions of them: one function of the arguments. -/
theorem algebraic : Cert.algebraic_KernelIdeal_ReferenceIdeal := by
  intro m ρ m' ρ' _ hagree
  refine ⟨_, Cert.KernelIdeal.Body.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v1_eq _ _ _).trans (Cert.KernelIdeal.Body.result_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
